-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4194304 : Shape := ⟨1, ![4194304]⟩
abbrev S512x64 : Shape := ⟨2, ![512, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x2048 .f32) (main_arg1 : FVec F S4194304 .f32) (main_arg2 : FVec F S512x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S8192x2048 : Shape := ⟨2, ![8192, 2048]⟩
abbrev S4194304 : Shape := ⟨1, ![4194304]⟩
abbrev S512x64 : Shape := ⟨2, ![512, 64]⟩
abbrev S65536x64 : Shape := ⟨2, ![65536, 64]⟩
abbrev S4096x64 : Shape := ⟨2, ![4096, 64]⟩
abbrev S512 : Shape := ⟨1, ![512]⟩
abbrev S512x1 : Shape := ⟨2, ![512, 1]⟩
abbrev S4096x1 : Shape := ⟨2, ![4096, 1]⟩
abbrev S4096x65 : Shape := ⟨2, ![4096, 65]⟩
abbrev S512x65 : Shape := ⟨2, ![512, 65]⟩
abbrev S65x512 : Shape := ⟨2, ![65, 512]⟩
abbrev S4096x512 : Shape := ⟨2, ![4096, 512]⟩
abbrev S2048x2048 : Shape := ⟨2, ![2048, 2048]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4194304, .f32⟩
  | .hbm, ⟨2, _⟩ => ⟨S512x64, .f32⟩
  | .hbm, ⟨3, _⟩ => ⟨S65536x64, .f32⟩
  | .hbm, ⟨4, _⟩ => ⟨S65536x64, .f32⟩
  | .hbm, ⟨5, _⟩ => ⟨S2048x2048, .f32⟩
  | .hbm, ⟨6, _⟩ => ⟨S8192x2048, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S4096x64, .f32⟩
  | .local _ .vmem, ⟨4, _⟩ => ⟨S4096x64, .f32⟩
  | .local _ .vmem, ⟨5, _⟩ => ⟨S512x2048, .f32⟩
  | .local _ .vmem, ⟨6, _⟩ => ⟨S512x2048, .f32⟩
  | .local _ .vmem, ⟨7, _⟩ => ⟨S2048x2048, .f32⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4194304_S65536x64 : S4194304.ShapeCasts S65536x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  concatenates_S4096x64_S4096x1_S4096x65_d1 : Shape.Concatenates [S4096x64, S4096x1] S4096x65 1
  concatenates_S512x64_S512x1_S512x65_d1 : Shape.Concatenates [S512x64, S512x1] S512x65 1
  transposes_S512x65_p1_0_S65x512 : S512x65.Transposes [1, 0] S65x512
  slices_S4096x65_o0_0_S4096x64 : S4096x65.Slices ![0, 0] S4096x64
  slices_S4096x65_o0_64_S4096x1 : S4096x65.Slices ![0, 64] S4096x1
  broadcasts_S4096x1_S4096x64 : S4096x1.Broadcasts S4096x64
  shapeCasts_S65536x64_S2048x2048 : S65536x64.ShapeCasts S2048x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S4096x65_S65x512_S4096x512_1_0_0_1_n_n_wf : DotDims.WF S4096x65 S65x512 S4096x512 [1] [0] [0] [1] [] []
  dot_S4096x512_S512x65_S4096x65_1_0_0_1_n_n_wf : DotDims.WF S4096x512 S512x65 S4096x65 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S65536x64.size a
  hwx0_0 : ∀ i : grid0.Coords, EltTy.bits .f32 = 32 ∨ (Rect.block (s := S65536x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .f32 = 32 ∨ (Rect.block (s := S2048x2048) S2048x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S4096x65_S65x512_S4096x512_1_0_0_1_n_n : DotDims S4096x65 S65x512 S4096x512 where
  lhsContracting := [1]
  rhsContracting := [0]
  lhsNonContracting := [0]
  rhsNonContracting := [1]
  lhsBatch := []
  rhsBatch := []
  wf := dot_S4096x65_S65x512_S4096x512_1_0_0_1_n_n_wf
def dot_S4096x512_S512x65_S4096x65_1_0_0_1_n_n : DotDims S4096x512 S512x65 S4096x65 where
  lhsContracting := [1]
  rhsContracting := [0]
  lhsNonContracting := [0]
  rhsNonContracting := [1]
  lhsBatch := []
  rhsBatch := []
  wf := dot_S4096x512_S512x65_S4096x65_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4194304 : Shape := ⟨1, ![4194304]⟩
abbrev S512x64 : Shape := ⟨2, ![512, 64]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S64x512 : Shape := ⟨2, ![64, 512]⟩
abbrev S65536x512 : Shape := ⟨2, ![65536, 512]⟩
abbrev S512 : Shape := ⟨1, ![512]⟩
abbrev S1x512 : Shape := ⟨2, ![1, 512]⟩
abbrev S2048x2048 : Shape := ⟨2, ![2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4194304, .f32⟩
  | .hbm, ⟨2, _⟩ => ⟨S512x64, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S64x512, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S512x64, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536, .f32⟩
  | .hbm, ⟨27, _⟩ => ⟨S_, .f32⟩
  | .hbm, ⟨28, _⟩ => ⟨S65536, .f32⟩
  | .hbm, ⟨29, _⟩ => ⟨S65536, .f32⟩
  | .hbm, ⟨30, _⟩ => ⟨S65536x1, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x512, .f32⟩
  | .hbm, ⟨38, _⟩ => ⟨S65536x512, .f32⟩
  | .hbm, ⟨39, _⟩ => ⟨S65536x64, .f32⟩
  | .hbm, ⟨40, _⟩ => ⟨S4194304, .f32⟩
  | .hbm, ⟨41, _⟩ => ⟨S2048x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S4194304_S65536x64 : S4194304.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  transposes_S512x64_S64x512_1_0 : S512x64.Transposes [1, 0] S64x512
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  reducesTo_S512x64_S512_d1 : S512x64.ReducesTo [1] S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  bcast_S_S65536 : S_.BroadcastsInDim S65536 (![] : Fin 0 → Fin S65536.rank)
  shapeCasts_S65536x64_S4194304 : S65536x64.ShapeCasts S4194304
  shapeCasts_S4194304_S2048x2048 : S4194304.ShapeCasts S2048x2048
  dot_S65536x64_S64x512_S65536x512_1_0_0_1_n_n_wf : DotDims.WF S65536x64 S64x512 S65536x512 [1] [0] [0] [1] [] []
  dot_S65536x512_S512x64_S65536x64_1_0_0_1_n_n_wf : DotDims.WF S65536x512 S512x64 S65536x64 [1] [0] [0] [1] [] []
  dot_S8192x2048_S2048x2048_S8192x2048_1_0_0_1_n_n_wf : DotDims.WF S8192x2048 S2048x2048 S8192x2048 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KernelRun.lean ====
/-
  The idealized kernel program's run with its result named.

  The program is two host reshapes and two grid kernels in a row. Its run ends with every unscoped buffer at the
  contents the last segment leaves: the fold of the four segments over the launch memory. Read at the result buffer
  that is the array the second kernel's write-backs leave; read at an argument it is the launch contents, since no
  segment writes an argument.
-/
import proofs.«177413_g7705171329283_cont_sun_m_1135_11_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the three arguments end as launched. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

/-- The last boundary's contents at the result buffer are what the second kernel's write-backs leave of its output
    window. -/
theorem result_arr (c : Dev nD) :
    W4 m ρ c (Proc.devRef .tc main_v3) = (dat1 (V3 m ρ) c).arrAt 2 cfg1.N :=
  W4_arr m ρ c 2

end Cert.KernelIdeal.Val

end
-- ==== Proof.Spec.lean ====
/-
  Soft vector quantization of one group against a codebook, as two formulas on the extended reals.

  A group is a vector z of 64 numbers, the codebook 512 codewords c k of 64 numbers each. The soft assignment of z
  weighs codeword k by exp(-|z - c k|^2), normalized over k, and the quantized group is the weighted sum of the
  codewords.

  * `kerQ` spells it without the term |z|^2, which is common to every k and cancels in the quotient: the logit of k is
    2 z.(c k) - |c k|^2, written as ONE sum over 65 terms cut at its last term (the row z extended by a one against the
    column 2 (c k) extended by -|c k|^2), the numerator sum_k e_k (c k) and the denominator sum_k e_k * 1 are taken
    separately and divided once.
  * `refQ` spells it as the textbook softmax: the full squared distance, its negation, the row maximum subtracted
    before the exponential, each weight divided by the row's sum, then the weighted sum.

  The float words stay words here (`zeroW`, `oneW`, `twoW`, `ninfW`): the modules that read the two programs meet
  these terms as they are printed; their values (0, 1, 2, -inf) are used only where the two formulas are proved equal.
-/
import Idealize.ShloMosaic.PureOps.Ideal

noncomputable section

open scoped BigOperators

namespace Cert.SoftVQ

open Idealize.ShloMosaic

/-- The word of 0.0. -/
abbrev zeroW : EReal := Ideal.ofBits .f32 0x00000000#32
/-- The word of 1.0. -/
abbrev oneW : EReal := Ideal.ofBits .f32 0x3F800000#32
/-- The word of 2.0. -/
abbrev twoW : EReal := Ideal.ofBits .f32 0x40000000#32
/-- The word of -inf. -/
abbrev ninfW : EReal := Ideal.ofBits .f32 0xFF800000#32

variable (z : Fin 64 → EReal) (c : Fin 512 → Fin 64 → EReal)

/-! ## The form without |z|^2 -/

/-- The logit of codeword `k`: the 65-term inner product cut at its last term. -/
def kerLogit (k : Fin 512) : EReal :=
  (∑ d : Fin 64, z d * (twoW * c k d)) + oneW * (zeroW - ∑ d : Fin 64, c k d * c k d)

/-- The unnormalized weight of codeword `k`. -/
def kerE (k : Fin 512) : EReal := Ideal.exp (kerLogit z c k * oneW)

/-- Coordinate `e` of the quantized group: one quotient of two sums. -/
def kerQ (e : Fin 64) : EReal :=
  Ideal.div (∑ k : Fin 512, kerE z c k * c k e) (∑ k : Fin 512, kerE z c k * oneW)

/-! ## The textbook softmax form -/

/-- The negated squared distance to codeword `k`, divided by the temperature 1. -/
def refScore (k : Fin 512) : EReal :=
  Ideal.div (-(((zeroW + ∑ d : Fin 64, z d * z d) - twoW * ∑ d : Fin 64, z d * c k d)
    + (zeroW + ∑ d : Fin 64, c k d * c k d))) oneW

/-- The row maximum of the scores, taken from -inf and once more against -inf. -/
def refMax : EReal := max ninfW ((Finset.univ : Finset (Fin 512)).fold max ninfW (refScore z c))

/-- The shifted exponential of codeword `k`. -/
def refP (k : Fin 512) : EReal := Ideal.exp (refScore z c k - refMax z c)

/-- Coordinate `e` of the quantized group: the sum of normalized weights times codewords. -/
def refQ (e : Fin 64) : EReal :=
  ∑ k : Fin 512, Ideal.div (refP z c k) (zeroW + ∑ k' : Fin 512, refP z c k') * c k e

end Cert.SoftVQ

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.QuantBody.lean ====
/-
  The quantizer kernel's body at an entry.

  The body reads a block z of 4096 groups and the whole codebook c. It extends every group by a one and every
  codeword 2 (c k) by -|c k|^2, takes all the inner products of the two (one matrix product with 65 inner terms),
  exponentiates, multiplies the weights into the codebook extended by a column of ones (a second matrix product:
  columns 0..63 are the weighted sums of codewords, column 64 is the sum of the weights), and divides the first 64
  columns by the last. Read at (g, e) it is `Cert.SoftVQ.kerQ` of row g of z and of the codebook, at e.
-/
import proofs.«177413_g7705171329283_cont_sun_m_1135_11_alg».proof.Proof.Gen.KernelIdeal.Skeleton
import proofs.«177413_g7705171329283_cont_sun_m_1135_11_alg».proof.Proof.Spec
import proofs.«177413_g7705171329283_cont_sun_m_1135_11_alg».proof.Proof.LibPlainDot
import proofs.«177413_g7705171329283_cont_sun_m_1135_11_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.Val

open Cert.KernelIdeal Cert.KernelIdeal.Gen Idealize.ShloMosaic Idealize.ShloMosaic.ValueIdx Cert.SoftVQ

/-! ## A column appended to a 64-column array -/

/-- An `[n, 64]` array with an `[n, 1]` column appended reads, in its first 64 columns, the array. -/
theorem append_col_left {n : ℕ} (a : FVec Ideal ⟨2, ![n, 64]⟩ .f32) (b : FVec Ideal ⟨2, ![n, 1]⟩ .f32)
    (h : Shape.Concatenates [(⟨2, ![n, 64]⟩ : Shape), ⟨2, ![n, 1]⟩] ⟨2, ![n, 65]⟩ 1) (r : Fin n) (d : Fin 64) :
    concatenate ⟨2, ![n, 65]⟩ 1 [⟨⟨2, ![n, 64]⟩, a⟩, ⟨⟨2, ![n, 1]⟩, b⟩] h (ix2 r d.castSucc) = a (ix2 r d) :=
  concatenate_pair_apply_left 1 a b h (ix2 r d.castSucc) rfl (ix2 r d)
    (fun bb => by match bb with | ⟨0, _⟩ => rfl | ⟨1, _⟩ => rfl)

/-- … and in its last column the appended column. -/
theorem append_col_right {n : ℕ} (a : FVec Ideal ⟨2, ![n, 64]⟩ .f32) (b : FVec Ideal ⟨2, ![n, 1]⟩ .f32)
    (h : Shape.Concatenates [(⟨2, ![n, 64]⟩ : Shape), ⟨2, ![n, 1]⟩] ⟨2, ![n, 65]⟩ 1) (r : Fin n) :
    concatenate ⟨2, ![n, 65]⟩ 1 [⟨⟨2, ![n, 64]⟩, a⟩, ⟨⟨2, ![n, 1]⟩, b⟩] h (ix2 r (Fin.last 64)) = b (ix2 r (0 : Fin 1)) :=
  concatenate_pair_apply_right 1 a b h (ix2 r (Fin.last 64)) rfl rfl (ix2 r (0 : Fin 1))
    (fun bb hb => by match bb with | ⟨0, _⟩ => rfl | ⟨1, _⟩ => exact absurd rfl hb) rfl

/-! ## The body's intermediate arrays, named -/

/-- The block of groups, each extended by a one. -/
def zAug (x0 : Vec Ideal S4096x64 .f32) : FVec Ideal S4096x65 .f32 :=
  concatenate S4096x65 1 [⟨S4096x64, shapeCast S4096x64 x0 shapeCasts_S4096x64_S4096x64⟩,
    ⟨S4096x1, broadcast S4096x1 (Scalar.ofBits .f32 0x3F800000#32)⟩] concatenates_S4096x64_S4096x1_S4096x65_d1

/-- The squared norm of every codeword, as a column. -/
def sqNorm (x1 : Vec Ideal S512x64 .f32) : FVec Ideal S512x1 .f32 :=
  shapeCast S512x1 (multiReduction .add [1] S512 (mulf x1 x1) 0x00000000#32 reduces_S512x64_S512 (.inl rfl) rfl) shapeCasts_S512_S512x1

/-- Twice every codeword, extended by minus its squared norm. -/
def cAug (x1 : Vec Ideal S512x64 .f32) : FVec Ideal S512x65 .f32 :=
  concatenate S512x65 1 [⟨S512x64, mulf (broadcast S512x64 (Scalar.ofBits .f32 0x40000000#32)) x1⟩,
    ⟨S512x1, subf (broadcast S512x1 (Scalar.ofBits .f32 0x00000000#32)) (sqNorm x1)⟩] concatenates_S512x64_S512x1_S512x65_d1

/-- The unnormalized weights: the exponential of all inner products of extended groups and extended codewords. -/
def weights (x0 : Vec Ideal S4096x64 .f32) (x1 : Vec Ideal S512x64 .f32) : FVec Ideal S4096x512 .f32 :=
  exp (mulf (matmul dot_S4096x65_S65x512_S4096x512_1_0_0_1_n_n none (zAug x0)
      (transpose S65x512 [1, 0] (cAug x1) transposes_S512x65_p1_0_S65x512) (constant S4096x512 .f32 0x00000000#32))
    (broadcast S4096x512 (Scalar.ofBits .f32 0x3F800000#32)))

/-- The codebook extended by a column of ones. -/
def cOnes (x1 : Vec Ideal S512x64 .f32) : FVec Ideal S512x65 .f32 :=
  concatenate S512x65 1 [⟨S512x64, x1⟩, ⟨S512x1, broadcast S512x1 (Scalar.ofBits .f32 0x3F800000#32)⟩]
    concatenates_S512x64_S512x1_S512x65_d1

/-- The weights times the extended codebook: 64 columns of weighted sums and one column of weight totals. -/
def sums (x0 : Vec Ideal S4096x64 .f32) (x1 : Vec Ideal S512x64 .f32) : FVec Ideal S4096x65 .f32 :=
  matmul dot_S4096x512_S512x65_S4096x65_1_0_0_1_n_n none (weights x0 x1) (cOnes x1) (constant S4096x65 .f32 0x00000000#32)

/-- The body's stored value is the first 64 columns of `sums` divided by its last. -/
theorem pay_eq (x0 : Vec Ideal S4096x64 .f32) (x1 : Vec Ideal S512x64 .f32) :
    k0_pay1 (F := Ideal) x0 x1
      = divf (extractStridedSlice S4096x64 ![0, 0] (sums x0 x1) slices_S4096x65_o0_0_S4096x64)
          (broadcastTo S4096x64 (extractStridedSlice S4096x1 ![0, 64] (sums x0 x1) slices_S4096x65_o0_64_S4096x1)
            broadcasts_S4096x1_S4096x64) := rfl

/-! ## Each of them at an entry -/

theorem scalar_word (w : BitVec 32) : (Scalar.ofBits (F := Ideal) .f32 w : EReal) = Ideal.ofBits .f32 w := rfl

theorem sqNorm_apply (x1 : Vec Ideal S512x64 .f32) (k : Fin 512) :
    sqNorm x1 (ix2 k (0 : Fin 1)) = ∑ d : Fin 64, x1 (ix2 k d) * x1 (ix2 k d) := by
  unfold sqNorm
  refine (shapeCast_a_a1_apply _ shapeCasts_S512_S512x1 k 0).trans ?_
  exact multiReduction_add_axis1_apply (mulf x1 x1) reduces_S512x64_S512 (.inl rfl) rfl k

theorem zAug_left (x0 : Vec Ideal S4096x64 .f32) (g : Fin 4096) (d : Fin 64) :
    zAug x0 (ix2 g d.castSucc) = x0 (ix2 g d) := by
  unfold zAug
  refine (append_col_left _ _ concatenates_S4096x64_S4096x1_S4096x65_d1 g d).trans ?_
  rw [shapeCast_self]

theorem zAug_right (x0 : Vec Ideal S4096x64 .f32) (g : Fin 4096) :
    zAug x0 (ix2 g (Fin.last 64)) = oneW := by
  unfold zAug
  exact append_col_right _ _ concatenates_S4096x64_S4096x1_S4096x65_d1 g

theorem cAug_left (x1 : Vec Ideal S512x64 .f32) (k : Fin 512) (d : Fin 64) :
    cAug x1 (ix2 k d.castSucc) = twoW * x1 (ix2 k d) := by
  unfold cAug
  exact append_col_left _ _ concatenates_S512x64_S512x1_S512x65_d1 k d

theorem cAug_right (x1 : Vec Ideal S512x64 .f32) (k : Fin 512) :
    cAug x1 (ix2 k (Fin.last 64)) = zeroW - ∑ d : Fin 64, x1 (ix2 k d) * x1 (ix2 k d) := by
  unfold cAug
  refine (append_col_right _ _ concatenates_S512x64_S512x1_S512x65_d1 k).trans ?_
  show zeroW - sqNorm x1 (ix2 k (0 : Fin 1)) = _
  rw [sqNorm_apply]

theorem cOnes_left (x1 : Vec Ideal S512x64 .f32) (k : Fin 512) (e : Fin 64) :
    cOnes x1 (ix2 k e.castSucc) = x1 (ix2 k e) := by
  unfold cOnes
  exact append_col_left _ _ concatenates_S512x64_S512x1_S512x65_d1 k e

theorem cOnes_right (x1 : Vec Ideal S512x64 .f32) (k : Fin 512) :
    cOnes x1 (ix2 k (Fin.last 64)) = oneW := by
  unfold cOnes
  exact append_col_right _ _ concatenates_S512x64_S512x1_S512x65_d1 k

/-- The transposed extended codebook at (d, k) is the extended codebook at (k, d). -/
theorem cAugT_apply (x1 : Vec Ideal S512x64 .f32) (d : Fin 65) (k : Fin 512) :
    transpose S65x512 [1, 0] (cAug x1) transposes_S512x65_p1_0_S65x512 (ix2 d k) = cAug x1 (ix2 k d) :=
  transpose_apply [1, 0] (cAug x1) transposes_S512x65_p1_0_S65x512 (ix2 d k) (ix2 k d)
    (fun b => by match b with | ⟨0, _⟩ => rfl | ⟨1, _⟩ => rfl)

/-- A weight is the exponential of the logit `2 z.(c k) - |c k|^2` in its 65-term spelling. -/
theorem weights_apply (x0 : Vec Ideal S4096x64 .f32) (x1 : Vec Ideal S512x64 .f32) (g : Fin 4096) (k : Fin 512) :
    weights x0 x1 (ix2 g k) = kerE (fun d => x0 (ix2 g d)) (fun k d => x1 (ix2 k d)) k := by
  unfold weights kerE kerLogit
  show Ideal.exp (matmul dot_S4096x65_S65x512_S4096x512_1_0_0_1_n_n none (zAug x0)
      (transpose S65x512 [1, 0] (cAug x1) transposes_S512x65_p1_0_S65x512) (constant S4096x512 .f32 0x00000000#32) (ix2 g k) * oneW) = _
  refine congrArg (fun t => Ideal.exp (t * oneW)) ?_
  refine (PlainDot.matmul_zero_apply dot_S4096x65_S65x512_S4096x512_1_0_0_1_n_n rfl none (zAug x0) _ (ix2 g k)).trans ?_
  rw [Fin.sum_univ_castSucc]
  refine congrArg₂ (· + ·) (Finset.sum_congr rfl fun d _ => ?_) ?_
  · show zAug x0 (ix2 g d.castSucc) * transpose S65x512 [1, 0] (cAug x1) transposes_S512x65_p1_0_S65x512 (ix2 d.castSucc k) = _
    rw [zAug_left, cAugT_apply, cAug_left]
  · show zAug x0 (ix2 g (Fin.last 64)) * transpose S65x512 [1, 0] (cAug x1) transposes_S512x65_p1_0_S65x512 (ix2 (Fin.last 64) k) = _
    rw [zAug_right, cAugT_apply, cAug_right]

theorem sums_left (x0 : Vec Ideal S4096x64 .f32) (x1 : Vec Ideal S512x64 .f32) (g : Fin 4096) (e : Fin 64) :
    sums x0 x1 (ix2 g e.castSucc)
      = ∑ k : Fin 512, kerE (fun d => x0 (ix2 g d)) (fun k d => x1 (ix2 k d)) k * x1 (ix2 k e) := by
  unfold sums
  refine (PlainDot.matmul_zero_apply dot_S4096x512_S512x65_S4096x65_1_0_0_1_n_n rfl none (weights x0 x1) (cOnes x1) (ix2 g e.castSucc)).trans ?_
  refine Finset.sum_congr rfl fun k _ => ?_
  show weights x0 x1 (ix2 g k) * cOnes x1 (ix2 k e.castSucc) = _
  rw [weights_apply, cOnes_left]

theorem sums_right (x0 : Vec Ideal S4096x64 .f32) (x1 : Vec Ideal S512x64 .f32) (g : Fin 4096) :
    sums x0 x1 (ix2 g (Fin.last 64))
      = ∑ k : Fin 512, kerE (fun d => x0 (ix2 g d)) (fun k d => x1 (ix2 k d)) k * oneW := by
  unfold sums
  refine (PlainDot.matmul_zero_apply dot_S4096x512_S512x65_S4096x65_1_0_0_1_n_n rfl none (weights x0 x1) (cOnes x1) (ix2 g (Fin.last 64))).trans ?_
  refine Finset.sum_congr rfl fun k _ => ?_
  show weights x0 x1 (ix2 g k) * cOnes x1 (ix2 k (Fin.last 64)) = _
  rw [weights_apply, cOnes_right]

/-- The first 64 columns of a 65-column array, at an entry. -/
theorem cols_left (y : FVec Ideal S4096x65 .f32) (g : Fin 4096) (e : Fin 64) :
    extractStridedSlice S4096x64 ![0, 0] y slices_S4096x65_o0_0_S4096x64 (ix2 g e) = y (ix2 g e.castSucc) :=
  extractStridedSlice_apply ![0, 0] y slices_S4096x65_o0_0_S4096x64 (ix2 g e) (ix2 g e.castSucc)
    (fun a => by
      match a with
      | ⟨0, _⟩ => show g.val = 0 + g.val; omega
      | ⟨1, _⟩ => show e.val = 0 + e.val; omega)

/-- Its last column, at an entry. -/
theorem col_last (y : FVec Ideal S4096x65 .f32) (g : Fin 4096) :
    extractStridedSlice S4096x1 ![0, 64] y slices_S4096x65_o0_64_S4096x1 (ix2 g (0 : Fin 1)) = y (ix2 g (Fin.last 64)) :=
  extractStridedSlice_apply ![0, 64] y slices_S4096x65_o0_64_S4096x1 (ix2 g (0 : Fin 1)) (ix2 g (Fin.last 64))
    (fun a => by
      match a with
      | ⟨0, _⟩ => show g.val = 0 + g.val; omega
      | ⟨1, _⟩ => show 64 = 64 + 0; rfl)

/-- THE BODY AT AN ENTRY: the stored block at (g, e) is the quotient form of the soft quantization of row g. -/
theorem pay_apply (x0 : Vec Ideal S4096x64 .f32) (x1 : Vec Ideal S512x64 .f32) (g : Fin 4096) (e : Fin 64) :
    k0_pay1 (F := Ideal) x0 x1 (ix2 g e) = kerQ (fun d => x0 (ix2 g d)) (fun k d => x1 (ix2 k d)) e := by
  rw [pay_eq]
  unfold kerQ
  generalize hs : sums x0 x1 = y
  refine (divf_apply _ _ (ix2 g e)).trans ?_
  refine congrArg₂ Ideal.div ?_ ?_
  · refine (cols_left y g e).trans ?_
    rw [← hs]
    exact sums_left x0 x1 g e
  · refine (broadcastTo_a1_ab_apply _ broadcasts_S4096x1_S4096x64 g e).trans ?_
    refine (col_last y g).trans ?_
    rw [← hs]
    exact sums_right x0 x1 g

end Cert.KernelIdeal.Val

end
-- ==== Proof.QuantArray.lean ====
/-
  The quantizer kernel's output array.

  The grid has 16 points; point t reads rows 4096 t .. 4096 t + 4095 of the group array and the whole codebook, and
  writes the same rows of the output. Every row of the output lies in exactly one point's block, so after the last
  point the output array is, entry by entry, the quotient form of the soft quantization of the corresponding row of
  the group array.
-/
import proofs.«177413_g7705171329283_cont_sun_m_1135_11_alg».proof.Proof.Gen.KernelIdeal.Frame
import proofs.«177413_g7705171329283_cont_sun_m_1135_11_alg».proof.Proof.QuantBody

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx Cert.SoftVQ
open Idealize.ShloMosaic.Pipeline (Dat)

variable (V : (c : Dev nD) → (b : Ref sig .tc) → Buf (Elt Ideal) ((c : Thread nD τ).loc b))

/-- The zero offsets of a whole-block access. -/
theorem zero_off : (![0, 0] : Fin 2 → Nat) = fun _ => 0 := funext fun a => by fin_cases a <;> rfl

/-- The whole quantized array as a function of the group array and the codebook: row by row the quotient form. -/
def quantArr (Z : S65536x64.Idx → EReal) (C : S512x64.Idx → EReal) : S65536x64.Idx → EReal :=
  fun i => kerQ (fun d => Z (ix2 (⟨(i 0).val, (i 0).isLt⟩ : Fin 65536) d)) (fun k d => C (ix2 k d))
    (⟨(i 1).val, (i 1).isLt⟩ : Fin 64)

/-- The block indices of the three windows at every grid point: the groups' and the output's blocks move with the
    point, the codebook's block is the whole codebook. -/
theorem quant_index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 16 :=
  (by decide +kernel : ∀ t : Fin grid0.N, _)

/-- Every row block of the output is some point's. -/
theorem quant_onto : ∀ q : Fin 16, ∃ t : Fin cfg0.N, win0_2.index t = ![q.val, 0] :=
  (by decide +kernel : ∀ q : Fin 16, ∃ t : Fin grid0.N, win0_2.index t = ![q.val, 0])

/-- One point's block: if the loaded group block is rows `4096 tv ..` of `Z` and the loaded codebook is `C`, the
    stored block is the same rows of `quantArr Z C`. -/
theorem quant_block (Z : S65536x64.Idx → EReal) (C : S512x64.Idx → EReal)
    (x0 : Vec Ideal S4096x64 .f32) (x1 : Vec Ideal S512x64 .f32) (tv : ℕ) (ht : tv < 16)
    (h0 : ∀ (g : Fin 4096) (d : Fin 64),
      x0 (ix2 g d) = Z (ix2 (⟨tv * 4096 + g.val, by have := g.isLt; omega⟩ : Fin 65536) d))
    (h1 : ∀ (k : Fin 512) (d : Fin 64), x1 (ix2 k d) = C (ix2 k d)) (g : Fin 4096) (e : Fin 64) :
    k0_pay1 (F := Ideal) x0 x1 (ix2 g e)
      = quantArr Z C (ix2 (⟨tv * 4096 + g.val, by have := g.isLt; omega⟩ : Fin 65536) e) := by
  rw [pay_apply]
  unfold quantArr
  have hz : (fun d => x0 (ix2 g d))
      = fun d => Z (ix2 (⟨tv * 4096 + g.val, by have := g.isLt; omega⟩ : Fin 65536) d) := funext fun d => h0 g d
  have hc : (fun k d => x1 (ix2 k d)) = fun k d => C (ix2 k d) := funext fun k => funext fun d => h1 k d
  rw [hz, hc]

/-- WHAT POINT `t` WRITES BACK is block `t` of `quantArr` of the arrays as the kernel finds them. -/
theorem quant_flushed (c : Dev nD) (t : Fin cfg0.N) :
    (dat0 V c).flushed 2 t
      = ((cfg0.win 2).blk t).view.read (Elt Ideal) (quantArr (V c main_v0) (V c main_arg2)) := by
  show (cfg0.win 2).cut (grid0.coords t) ((dat0 V c).after 2 t) = _
  rw [after0_2]
  unfold out0_2
  rw [View.canon_unit_zero zero_off]
  simp only [View.ld_unit_zero (S := S4096x64) zero_off, View.ld_unit_zero (S := S512x64) zero_off]
  obtain ⟨e0, e1, e2, e3, e4, e5, e6⟩ := quant_index_facts t
  funext j
  obtain ⟨g, e, rfl⟩ : ∃ (g : Fin 4096) (e : Fin 64), j = ix2 g e := ⟨j 0, j 1, eq_ix2 j⟩
  show k0_pay1 (F := Ideal) (iblk0 V c 0 t) (iblk0 V c 1 t) (ix2 g e)
    = quantArr (V c main_v0) (V c main_arg2) (((cfg0.win 2).blk t).view.emb (ix2 g e))
  refine (quant_block (V c main_v0) (V c main_arg2) _ _ t.val e6 ?_ ?_ g e).trans ?_
  · intro g d
    show V c main_v0 (((cfg0.win 0).blk t).view.emb (ix2 g d)) = _
    refine congrArg (V c main_v0) ?_
    funext a; apply Fin.ext
    match a with
    | ⟨0, _⟩ => show win0_0.index t (0 : Fin 2) * 4096 + 1 * g.val = t.val * 4096 + g.val; omega
    | ⟨1, _⟩ => show win0_0.index t (1 : Fin 2) * 64 + 1 * d.val = d.val; omega
  · intro k d
    show V c main_arg2 (((cfg0.win 1).blk t).view.emb (ix2 k d)) = _
    refine congrArg (V c main_arg2) ?_
    funext a; apply Fin.ext
    match a with
    | ⟨0, _⟩ => show win0_1.index t (0 : Fin 2) * 512 + 1 * k.val = k.val; omega
    | ⟨1, _⟩ => show win0_1.index t (1 : Fin 2) * 64 + 1 * d.val = d.val; omega
  · refine congrArg (quantArr (V c main_v0) (V c main_arg2)) ?_
    funext a; apply Fin.ext
    match a with
    | ⟨0, _⟩ => show t.val * 4096 + g.val = win0_2.index t (0 : Fin 2) * 4096 + 1 * g.val; omega
    | ⟨1, _⟩ => show e.val = win0_2.index t (1 : Fin 2) * 64 + 1 * e.val; omega

/-- An entry of the output array is in point `t`'s block iff each coordinate is in the block's range. -/
theorem quant_mem_blk (t : Fin cfg0.N) (i : S65536x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v1).slice (win0_2.rect t)).set ↔ _
  rw [View.set_slice_whole, Rect.mem_set_unit]
  exact Iff.rfl

/-- Every entry of the output array is in the block of the point its row falls in. -/
theorem quant_cover (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  obtain ⟨t, ht⟩ := quant_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [quant_mem_blk]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 64 ≤ (i 1).val ∧ (i 1).val < win0_2.index t (1 : Fin 2) * 64 + 64
    omega

/-- THE OUTPUT ARRAY after the last point is `quantArr` of the arrays as the kernel finds them. -/
theorem quant_final (c : Dev nD) :
    (dat0 V c).arrAt 2 cfg0.N = quantArr (V c main_v0) (V c main_arg2) :=
  (dat0 V c).arrAt_eq_of_cover 2 _ (fun t _ => quant_flushed V c t) quant_cover

end Cert.KernelIdeal.Val

end
-- ==== Proof.MatmulBody.lean ====
/-
  The kernel's matrix-product block read at an entry.

  The block takes a 512 x 2048 tile of the left matrix and the whole 2048 x 2048 weight matrix, reshapes the weight to
  the shape it already has (the identity), and multiplies the two into an accumulator of zeros. Entry (r, c) of the
  result is therefore the plain inner product: the sum over k of left (r, k) times weight (k, c).
-/
import proofs.«177413_g7705171329283_cont_sun_m_1135_11_alg».proof.Proof.Gen.KernelIdeal.Skeleton
import proofs.«177413_g7705171329283_cont_sun_m_1135_11_alg».proof.Proof.LibPlainDot
import Idealize.ShloMosaic.Lib.Pipeline.Value
import Idealize.ShloMosaic.Lib.ValueIdx

noncomputable section

open scoped BigOperators

namespace Cert.KernelIdeal.Val

open Cert.KernelIdeal Cert.KernelIdeal.Gen Idealize.ShloMosaic Idealize.ShloMosaic.ValueIdx Idealize.SL.Sem

/-- Entry (r, c) of the block's product: a reshape to the same shape is the identity, and a product into the zero
    accumulator is the sum over the contracted coordinate k of left (r, k) times weight (k, c). -/
theorem matmul_pay_apply (x0 : Vec Ideal S512x2048 .f32) (x1 : Vec Ideal S2048x2048 .f32) (r : Fin 512) (cc : Fin 2048) :
    Cert.KernelIdeal.Gen.k1_pay1 (F := Ideal) x0 x1 (ix2 r cc) = ∑ k : Fin 2048, x0 (ix2 r k) * x1 (ix2 k cc) := by
  unfold Cert.KernelIdeal.Gen.k1_pay1
  rw [shapeCast_self]
  refine (PlainDot.matmul_zero_apply dot_S512x2048_S2048x2048_S512x2048_1_0_0_1_n_n rfl none _ _ (ix2 r cc)).trans ?_
  rfl

end Cert.KernelIdeal.Val

end
-- ==== Proof.ProductArray.lean ====
/-
  The product kernel's output array.

  The grid has 16 points (16 row blocks, one column block); point t reads rows 512 t .. 512 t + 511 of the activations
  and the whole weight matrix, and writes the same rows of the output: the matrix product of the two blocks. Every row
  of the output lies in exactly one point's block, so after the last point the output array is the matrix product of
  the activations and the weights, entry by entry the sum over the 2048 inner indices.
-/
import proofs.«177413_g7705171329283_cont_sun_m_1135_11_alg».proof.Proof.Gen.KernelIdeal.Frame
import proofs.«177413_g7705171329283_cont_sun_m_1135_11_alg».proof.Proof.MatmulBody

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access. -/
theorem zero_off' : (![0, 0] : Fin 2 → Nat) = fun _ => 0 := funext fun a => by fin_cases a <;> rfl

/-- The matrix product of an `[8192, 2048]` array and a `[2048, 2048]` array, entry by entry. -/
def prodArr (X : S8192x2048.Idx → EReal) (Wm : S2048x2048.Idx → EReal) : S8192x2048.Idx → EReal :=
  fun i => ∑ k : Fin 2048, X (ix2 (⟨(i 0).val, (i 0).isLt⟩ : Fin 8192) k) * Wm (ix2 k (⟨(i 1).val, (i 1).isLt⟩ : Fin 2048))

/-- The block indices of the three windows at every grid point: the activations' and the output's row blocks move
    with the point, the weights' block is the whole matrix. -/
theorem prod_index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 16 :=
  (by decide +kernel : ∀ t : Fin grid1.N, _)

/-- Every row block of the output is some point's. -/
theorem prod_onto : ∀ q : Fin 16, ∃ t : Fin cfg1.N, win1_2.index t = ![q.val, 0] :=
  (by decide +kernel : ∀ q : Fin 16, ∃ t : Fin grid1.N, win1_2.index t = ![q.val, 0])

/-- One point's block: if the loaded activation block is rows `512 tv ..` of `X` and the loaded weights are `Wm`, the
    stored block is the same rows of `prodArr X Wm`. -/
theorem prod_block (X : S8192x2048.Idx → EReal) (Wm : S2048x2048.Idx → EReal)
    (x0 : Vec Ideal S512x2048 .f32) (x1 : Vec Ideal S2048x2048 .f32) (tv : ℕ) (ht : tv < 16)
    (h0 : ∀ (r : Fin 512) (k : Fin 2048),
      x0 (ix2 r k) = X (ix2 (⟨tv * 512 + r.val, by have := r.isLt; omega⟩ : Fin 8192) k))
    (h1 : ∀ (k : Fin 2048) (cc : Fin 2048), x1 (ix2 k cc) = Wm (ix2 k cc)) (r : Fin 512) (cc : Fin 2048) :
    k1_pay1 (F := Ideal) x0 x1 (ix2 r cc)
      = prodArr X Wm (ix2 (⟨tv * 512 + r.val, by have := r.isLt; omega⟩ : Fin 8192) cc) := by
  rw [matmul_pay_apply]
  unfold prodArr
  refine Finset.sum_congr rfl fun k _ => ?_
  rw [h0 r k, h1 k cc]

/-- WHAT POINT `t` WRITES BACK is block `t` of `prodArr` of the arrays as the kernel finds them. -/
theorem prod_flushed (c : Dev nD) (t : Fin cfg1.N) :
    (dat1 V c).flushed 2 t
      = ((cfg1.win 2).blk t).view.read (Elt Ideal) (prodArr (V c main_arg0) (V c main_v2)) := by
  show (cfg1.win 2).cut (grid1.coords t) ((dat1 V c).after 2 t) = _
  rw [after1_2]
  unfold out1_2
  rw [View.canon_unit_zero zero_off']
  simp only [View.ld_unit_zero (S := S512x2048) zero_off', View.ld_unit_zero (S := S2048x2048) zero_off']
  obtain ⟨e0, e1, e2, e3, e4, e5, e6⟩ := prod_index_facts t
  funext j
  obtain ⟨r, cc, rfl⟩ : ∃ (r : Fin 512) (cc : Fin 2048), j = ix2 r cc := ⟨j 0, j 1, eq_ix2 j⟩
  show k1_pay1 (F := Ideal) (iblk1 V c 0 t) (iblk1 V c 1 t) (ix2 r cc)
    = prodArr (V c main_arg0) (V c main_v2) (((cfg1.win 2).blk t).view.emb (ix2 r cc))
  refine (prod_block (V c main_arg0) (V c main_v2) _ _ t.val e6 ?_ ?_ r cc).trans ?_
  · intro r k
    show V c main_arg0 (((cfg1.win 0).blk t).view.emb (ix2 r k)) = _
    refine congrArg (V c main_arg0) ?_
    funext a; apply Fin.ext
    match a with
    | ⟨0, _⟩ => show win1_0.index t (0 : Fin 2) * 512 + 1 * r.val = t.val * 512 + r.val; omega
    | ⟨1, _⟩ => show win1_0.index t (1 : Fin 2) * 2048 + 1 * k.val = k.val; omega
  · intro k cc
    show V c main_v2 (((cfg1.win 1).blk t).view.emb (ix2 k cc)) = _
    refine congrArg (V c main_v2) ?_
    funext a; apply Fin.ext
    match a with
    | ⟨0, _⟩ => show win1_1.index t (0 : Fin 2) * 2048 + 1 * k.val = k.val; omega
    | ⟨1, _⟩ => show win1_1.index t (1 : Fin 2) * 2048 + 1 * cc.val = cc.val; omega
  · refine congrArg (prodArr (V c main_arg0) (V c main_v2)) ?_
    funext a; apply Fin.ext
    match a with
    | ⟨0, _⟩ => show t.val * 512 + r.val = win1_2.index t (0 : Fin 2) * 512 + 1 * r.val; omega
    | ⟨1, _⟩ => show cc.val = win1_2.index t (1 : Fin 2) * 2048 + 1 * cc.val; omega

/-- An entry of the output array is in point `t`'s block iff each coordinate is in the block's range. -/
theorem prod_mem_blk (t : Fin cfg1.N) (i : S8192x2048.Idx) :
    i ∈ ((cfg1.win 2).blk t).view.set ↔ ∀ a : Fin 2, win1_2.index t a * S512x2048.size a ≤ (i a).val
      ∧ (i a).val < win1_2.index t a * S512x2048.size a + S512x2048.size a := by
  show i ∈ ((View.whole main_v3).slice (win1_2.rect t)).set ↔ _
  rw [View.set_slice_whole, Rect.mem_set_unit]
  exact Iff.rfl

/-- Every entry of the output array is in the block of the point its row falls in. -/
theorem prod_cover (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  obtain ⟨t, ht⟩ := prod_onto ⟨(i 0).val / 512, by omega⟩
  have q0 : win1_2.index t (0 : Fin 2) = (i 0).val / 512 := congrFun ht 0
  have q1 : win1_2.index t (1 : Fin 2) = 0 := congrFun ht 1
  refine ⟨t, flush1_2 t, ?_⟩
  rw [prod_mem_blk]
  intro a
  match a with
  | ⟨0, _⟩ =>
    show win1_2.index t (0 : Fin 2) * 512 ≤ (i 0).val ∧ (i 0).val < win1_2.index t (0 : Fin 2) * 512 + 512
    omega
  | ⟨1, _⟩ =>
    show win1_2.index t (1 : Fin 2) * 2048 ≤ (i 1).val ∧ (i 1).val < win1_2.index t (1 : Fin 2) * 2048 + 2048
    omega

/-- THE OUTPUT ARRAY after the last point is `prodArr` of the arrays as the kernel finds them. -/
theorem prod_final (c : Dev nD) :
    (dat1 V c).arrAt 2 cfg1.N = prodArr (V c main_arg0) (V c main_v2) :=
  (dat1 V c).arrAt_eq_of_cover 2 _ (fun t _ => prod_flushed V c t) prod_cover

end Cert.KernelIdeal.Val

end
-- ==== Proof.HostReads.lean ====
/-
  What the two kernels find in their input buffers, read off the run of the host operations.

  The run starts from the launch memory m. Before the first kernel one host operation runs: the flat second argument
  (4194304 numbers) is reshaped to 65536 groups of 64. Between the two kernels one more runs: the first kernel's
  output (65536 by 64) is reshaped to 2048 by 2048. A reshape writes its result buffer only: that buffer then holds
  the operand's elements read at the new shape, and every other buffer holds what it held before. The first kernel
  writes its own output buffer only. Hence

  * at the first kernel's entry the groups are the reshaped second argument as launched, and the codebook (the third
    argument) is as launched;
  * at the second kernel's entry the activations (the first argument) are as launched, having been written by neither
    reshape nor by the first kernel, and the weights are the reshape of what the first kernel left in its output.
-/
import proofs.«177413_g7705171329283_cont_sun_m_1135_11_alg».proof.Proof.Gen.KernelIdeal.Frame
import Idealize.ShloMosaic.Lib.StableHlo.Run
import Idealize.ShloMosaic.PureOps.Ideal

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- At the first kernel's entry the codebook is the third argument as launched: the one reshape before it writes
    another buffer. -/
theorem entry_codebook : V1 m ρ c main_arg2 = m ((c.tc : Thread nD τ).loc main_arg2) :=
  calc V1 m ρ c main_arg2
    _ = W1 m ρ c (Proc.devRef .tc main_arg2) := rfl
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- At the second kernel's entry the activations are the first argument as launched: neither reshape writes that
    buffer, and the first kernel does not either. -/
theorem entry_acts : V3 m ρ c main_arg0 = m ((c.tc : Thread nD τ).loc main_arg0) :=
  calc V3 m ρ c main_arg0
    _ = W3 m ρ c (Proc.devRef .tc main_arg0) := rfl
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- At the first kernel's entry the groups are the second argument as launched, read at the shape 65536 by 64. -/
theorem entry_groups : (V1 m ρ c main_v0 : S65536x64.Idx → EReal) = shapeCast S65536x64 (m ((c.tc : Thread nD τ).loc main_arg1)) Facts₀.shapeCasts_S4194304_S65536x64 := by
  show StableHlo.after hostOps0 (W0 m ρ c) (Proc.devRef .tc main_v0) = _
  dsimp only [hostOps0]
  after_results
  rfl

/-- At the second kernel's entry the weights are what the first kernel left in its output, read at the shape
    2048 by 2048. -/
theorem entry_weights : (V3 m ρ c main_v2 : S2048x2048.Idx → EReal) = shapeCast S2048x2048 (W2 m ρ c (Proc.devRef .tc main_v1)) Facts₀.shapeCasts_S65536x64_S2048x2048 := by
  show StableHlo.after hostOps1 (W2 m ρ c) (Proc.devRef .tc main_v2) = _
  generalize W2 m ρ c = Wv
  dsimp only [hostOps1]
  after_results
  rfl

end Cert.KernelIdeal.Val

end
-- ==== Proof.KernelValue.lean ====
/-
  The idealized kernel program's result as one function of its three arguments.

  The program reshapes the flat parameter vector into 65536 groups of 64, quantizes every group softly against the
  codebook (first kernel), reshapes the quantized groups into a [2048, 2048] weight matrix, and multiplies the
  activations by it (second kernel). Each kernel's output array is known as a function of the arrays it finds;
  the two host reshapes are read off the program; composing the four gives the result.
-/
import proofs.«177413_g7705171329283_cont_sun_m_1135_11_alg».proof.Proof.KernelRun
import proofs.«177413_g7705171329283_cont_sun_m_1135_11_alg».proof.Proof.QuantArray
import proofs.«177413_g7705171329283_cont_sun_m_1135_11_alg».proof.Proof.ProductArray
import proofs.«177413_g7705171329283_cont_sun_m_1135_11_alg».proof.Proof.HostReads

set_option maxRecDepth 16384

noncomputable section

open scoped BigOperators

namespace Cert.KernelIdeal.Val

open Cert.KernelIdeal Cert.KernelIdeal.Gen Idealize.ShloMosaic Idealize.ShloMosaic.TcCoe Idealize.SL.Sem
open Idealize.ShloMosaic.ValueIdx

/-- The result array as a function of the activations `X`, the flat parameters `P` and the codebook `C`. -/
def result (X : S8192x2048.Idx → EReal) (P : S4194304.Idx → EReal) (C : S512x64.Idx → EReal) : S8192x2048.Idx → EReal :=
  prodArr X (shapeCast S2048x2048 (quantArr (shapeCast S65536x64 P Facts₀.shapeCasts_S4194304_S65536x64) C)
    Facts₀.shapeCasts_S65536x64_S2048x2048)

variable (m : (ℓ : Loc nD τ sig) → Buf (Elt Ideal) ℓ) (ρ : Dev nD → PrngReg)

/-- The last boundary's contents at the result buffer are `result` of the launch contents of the arguments. -/
theorem result_eq (c : Dev nD) :
    W4 m ρ c (Proc.devRef .tc main_v3)
      = result (m ((c.tc : Thread nD τ).loc main_arg0)) (m ((c.tc : Thread nD τ).loc main_arg1))
          (m ((c.tc : Thread nD τ).loc main_arg2)) := by
  refine (result_arr m ρ c).trans ?_
  refine (prod_final (V3 m ρ) c).trans ?_
  unfold result
  refine congrArg₂ prodArr (entry_acts m ρ c) ?_
  refine (entry_weights m ρ c).trans ?_
  refine congrArg (fun y => shapeCast S2048x2048 y Facts₀.shapeCasts_S65536x64_S2048x2048) ?_
  refine (W2_arr m ρ c 2).trans ?_
  refine (quant_final (V1 m ρ) c).trans ?_
  exact congrArg₂ quantArr (entry_groups m ρ c) (entry_codebook m ρ c)

/-- THE RUN: every weakly fair execution terminates without a fault, the result buffer ends at `result` of the
    arguments and the arguments end as launched. -/
theorem run : θ_run defs (onTc (τ := τ) (main (F := Ideal))) ⟨m, fun _ => 0, ρ⟩ (fun r => ∀ c : Dev nD,
      r.2.mem ((c.tc : Thread nD τ).loc main_v3)
        = result (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (run_named m ρ)

end Cert.KernelIdeal.Val

end
-- ==== Proof.LibHostRowMax.lean ====
/-
  GENERAL LEMMA: the host's reduce with a maximum body along the second axis of a rank-2 array — what
  `max(x, axis=1)` is in a host program — read at an index given by coordinates.
  • `hostReduce_maximumf_axis1_apply`: on the extended reals, the reduce of an `[a, b]` array along axis 1, at `i`, is the
    fold of `max` over the entries `(i, k)` of row `i`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 1 of an `[a, b]` array of extended reals: at `i` it is the fold of `max`, from the
    initial value, over the entries of row `i`. -/
theorem hostReduce_maximumf_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x _ h' h hu]
  refine congrArg (fun f => Finset.fold max (init (Shape.Idx.first hu)) f (Finset.univ : Finset (Fin b))) (funext fun k => congrArg x ?_)
  funext c
  match c with
  | ⟨0, _⟩ => exact Fin.ext rfl
  | ⟨1, _⟩ => exact Fin.ext rfl

end Idealize.ShloMosaic.ValueIdx

end
-- ==== Proof.RefRead.lean ====
/-
  The reference program read at one entry of its quantized array.

  The reference reshapes the parameter vector into 65536 groups of 64 numbers and quantizes every group softly
  against the codebook of 512 codewords. Read at the entry (g, e) the program is the textbook softmax formula
  refQ of the group z = row g of the reshaped vector against the codebook c:
    * the score of codeword k: -((0 + sum_d z_d^2) - 2 sum_d z_d c_kd + (0 + sum_d c_kd^2)) / 1,
    * the row maximum of the scores, folded from -inf and taken once more against -inf,
    * the exponential of the score minus that maximum,
    * the row sum of those exponentials, from 0,
    * the sum over k of (exponential / row sum) times c_ke.
  Each layer below reads one of these five and is stated at an index built from its coordinates.
-/
import proofs.«177413_g7705171329283_cont_sun_m_1135_11_alg».proof.Proof.Gen.ReferenceIdeal.Read
import proofs.«177413_g7705171329283_cont_sun_m_1135_11_alg».proof.Proof.Spec
import proofs.«177413_g7705171329283_cont_sun_m_1135_11_alg».proof.Proof.LibHostRowMax
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Idealize.SL.Sem

/-! ## Index equations: the program's composed index maps at an index given by coordinates -/

/-- The squared norm of the group: broadcast to column k, the row sum over d reads the reshaped vector at (g, d). -/
theorem idx_normz (g : Fin 65536) (k : Fin 512) (d : Fin 64) :
    Read.idx_main_v2 (Read.idx_main_v3 (Read.idx_main_v8 (ix2 g k))) d = ix2 g d :=
  funext fun a => Fin.ext (by match a with | ⟨0, _⟩ => rfl | ⟨1, _⟩ => rfl)

/-- The inner product's left operand at (g, k), term d: the reshaped vector at (g, d). -/
theorem idx_dotl (g : Fin 65536) (k : Fin 512) (d : Fin 64) :
    Read.lidx_main_v5 (ix2 g k) d = ix2 g d :=
  funext fun a => Fin.ext (by match a with | ⟨0, _⟩ => rfl | ⟨1, _⟩ => rfl)

/-- The inner product's right operand at (g, k), term d: the transposed codebook at (d, k), the codebook at (k, d). -/
theorem idx_dotr (g : Fin 65536) (k : Fin 512) (d : Fin 64) :
    Read.idx_main_v4 (Read.ridx_main_v5 (ix2 g k) d) = ix2 k d :=
  funext fun a => Fin.ext (by match a with | ⟨0, _⟩ => rfl | ⟨1, _⟩ => rfl)

/-- The squared norm of codeword k: broadcast to row g, the row sum over d reads the codebook at (k, d). -/
theorem idx_normc (g : Fin 65536) (k : Fin 512) (d : Fin 64) :
    Read.idx_main_v11 (Read.idx_main_v12 (Read.idx_main_v13 (ix2 g k))) d = ix2 k d :=
  funext fun a => Fin.ext (by match a with | ⟨0, _⟩ => rfl | ⟨1, _⟩ => rfl)

/-- The row maximum broadcast to column k is read at row g. -/
theorem idx_max (g : Fin 65536) (k : Fin 512) :
    Read.idx_main_v21 (Read.idx_main_v22 (ix2 g k)) = ix1 g :=
  funext fun a => Fin.ext (by match a with | ⟨0, _⟩ => rfl)

/-- The row sum at row g, term k, reads the exponentials at (g, k). -/
theorem idx_sum (g : Fin 65536) (k : Fin 512) :
    Read.idx_main_v25 (ix1 g) k = ix2 g k :=
  funext fun a => Fin.ext (by match a with | ⟨0, _⟩ => rfl | ⟨1, _⟩ => rfl)

/-- The row sum broadcast to column k is read at row g. -/
theorem idx_den (g : Fin 65536) (k : Fin 512) :
    Read.idx_main_v26 (Read.idx_main_v27 (ix2 g k)) = ix1 g :=
  funext fun a => Fin.ext (by match a with | ⟨0, _⟩ => rfl)

/-- The last product's left operand at (g, e), term k: the weights at (g, k). -/
theorem idx_outl (g : Fin 65536) (e : Fin 64) (k : Fin 512) :
    Read.lidx_main_v29 (ix2 g e) k = ix2 g k :=
  funext fun a => Fin.ext (by match a with | ⟨0, _⟩ => rfl | ⟨1, _⟩ => rfl)

/-- The last product's right operand at (g, e), term k: the codebook at (k, e). -/
theorem idx_outr (g : Fin 65536) (e : Fin 64) (k : Fin 512) :
    Read.ridx_main_v29 (ix2 g e) k = ix2 k e :=
  funext fun a => Fin.ext (by match a with | ⟨0, _⟩ => rfl | ⟨1, _⟩ => rfl)

section Layers

variable (x1 : (⟨S4194304, .f32⟩ : BufTy).Contents (Elt Ideal)) (x2 : (⟨S512x64, .f32⟩ : BufTy).Contents (Elt Ideal))

/-! ## Layer 1: the score -/

/-- The score of codeword k for group g: the negated squared distance |z|^2 - 2 z.c_k + |c_k|^2, each squared norm a
    sum from 0, divided by the temperature 1. -/
theorem score_apply (g : Fin 65536) (k : Fin 512) :
    Read.val_main_v17 (F := Ideal) x1 x2 (ix2 g k)
      = Cert.SoftVQ.refScore (fun d => Read.val_main_v0 (F := Ideal) x1 (ix2 g d)) (fun k d => x2 (ix2 k d)) k := by
  rw [Read.val_main_v17_apply, Read.val_main_v16_apply, Read.val_main_cst_2_apply, Read.val_main_v15_apply,
    Read.val_main_v14_apply, Read.val_main_v13_apply, Read.val_main_v12_apply, Read.val_main_v11_apply,
    Read.val_main_cst_1_apply, Read.val_main_v9_apply, Read.val_main_v8_apply, Read.val_main_v3_apply,
    Read.val_main_v2_apply, Read.val_main_cst_apply, Read.val_main_v7_apply, Read.val_main_v6_apply,
    Read.val_main_cst_0_apply, Read.val_main_v5_apply]
  simp only [Read.val_main_v10_apply, Read.val_main_v1_apply, Read.val_main_v4_apply, idx_normz, idx_dotl, idx_dotr,
    idx_normc, Ideal.mulf_def, Ideal.addf_def, Ideal.subf_def, Ideal.hostDivf_def, Ideal.hostNegf_def, Ideal.negf_def,
    Ideal.ofBits_def]
  rfl

/-! ## Layer 2: the row maximum -/

/-- The maximum of row g: the fold of max over the 512 scores from -inf, then once more against -inf. -/
theorem max_apply (g : Fin 65536) :
    Read.val_main_v20 (F := Ideal) x1 x2 (ix1 g)
      = Cert.SoftVQ.refMax (fun d => Read.val_main_v0 (F := Ideal) x1 (ix2 g d)) (fun k d => x2 (ix2 k d)) := by
  rw [Read.val_main_v20_apply, Read.val_main_v19_apply, Read.val_main_cst_4_apply]
  unfold Read.val_main_v18
  rw [hostReduce_maximumf_axis1_apply (Read.val_main_v17 (F := Ideal) x1 x2) (Read.val_main_cst_3 (F := Ideal))
    reducesTo_S65536x512_S65536_d1 (by decide) h_S_ g, Read.val_main_cst_3_apply]
  simp only [score_apply, Ideal.maximumf_def, Ideal.ofBits_def]
  rfl

/-! ## Layer 3: the shifted exponential -/

/-- The exponential of the score of codeword k minus the maximum of row g. -/
theorem exp_apply (g : Fin 65536) (k : Fin 512) :
    Read.val_main_v24 (F := Ideal) x1 x2 (ix2 g k)
      = Cert.SoftVQ.refP (fun d => Read.val_main_v0 (F := Ideal) x1 (ix2 g d)) (fun k d => x2 (ix2 k d)) k := by
  rw [Read.val_main_v24_apply, Read.val_main_v23_apply, Read.val_main_v22_apply, Read.val_main_v21_apply, idx_max,
    max_apply, score_apply]
  simp only [Ideal.hostUnary_exp_def, Ideal.subf_def]
  rfl

/-! ## Layer 4: the row sum -/

/-- The sum of row g's 512 exponentials, from 0. -/
theorem sum_apply (g : Fin 65536) :
    Read.val_main_v25 (F := Ideal) x1 x2 (ix1 g)
      = Cert.SoftVQ.zeroW + ∑ k' : Fin 512,
          Cert.SoftVQ.refP (fun d => Read.val_main_v0 (F := Ideal) x1 (ix2 g d)) (fun k d => x2 (ix2 k d)) k' := by
  rw [Read.val_main_v25_apply, Read.val_main_cst_5_apply]
  simp only [idx_sum, exp_apply, Ideal.ofBits_def]

end Layers

/-! ## Layer 5: the quantized entry -/

/-- Entry (g, e) of the quantized array: the sum over the codewords k of the exponential over the row sum, times
    coordinate e of codeword k. This is the textbook softmax formula of group g against the codebook. -/
theorem quantized_apply (x1 : (⟨S4194304, .f32⟩ : BufTy).Contents (Elt Ideal)) (x2 : (⟨S512x64, .f32⟩ : BufTy).Contents (Elt Ideal))
    (g : Fin 65536) (e : Fin 64) :
    Read.val_main_v29 (F := Ideal) x1 x2 (ix2 g e)
      = Cert.SoftVQ.refQ (fun d => Read.val_main_v0 (F := Ideal) x1 (ix2 g d)) (fun k d => x2 (ix2 k d)) e := by
  rw [Read.val_main_v29_apply]
  simp only [Read.val_main_v28_apply, Read.val_main_v27_apply, Read.val_main_v26_apply, idx_outl, idx_outr, idx_den,
    sum_apply, exp_apply, Ideal.hostDivf_def]
  rfl

end Cert.ReferenceIdeal.RefValue

end
-- ==== Proof.RefTop.lean ====
/-
  The top of the reference program: its last product, and the two reshapes that feed it.

  The reference flattens the 65536 x 64 quantized array to a vector of 4194304 numbers and reshapes that to the
  2048 x 2048 weight matrix, then multiplies the 8192 x 2048 input by it.
    * Entry i of the output is the sum over k of input (i_0, k) times weight (k, i_1).
    * Two reshapes in a row are one: a reshape reads its operand at the index with the same row-major position, and
      matching positions through a third shape is matching them directly. So the weight matrix is the quantized
      array reshaped once.
-/
import proofs.«177413_g7705171329283_cont_sun_m_1135_11_alg».proof.Proof.Gen.ReferenceIdeal.Read
import Idealize.ShloMosaic.Lib.Pipeline.Value
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx Idealize.SL.Sem

/-- The last product's left operand at i, term k: the input at (i_0, k). -/
theorem idx_topl (i : S8192x2048.Idx) (k : Fin 2048) :
    Read.lidx_main_v32 i k = ix2 ⟨(i 0).val, (i 0).isLt⟩ k :=
  funext fun a => Fin.ext (by match a with | ⟨0, _⟩ => rfl | ⟨1, _⟩ => rfl)

/-- The last product's right operand at i, term k: the weight matrix at (k, i_1). -/
theorem idx_topr (i : S8192x2048.Idx) (k : Fin 2048) :
    Read.ridx_main_v32 i k = ix2 k ⟨(i 1).val, (i 1).isLt⟩ :=
  funext fun a => Fin.ext (by match a with | ⟨0, _⟩ => rfl | ⟨1, _⟩ => rfl)

/-- Entry i of the reference's output: the sum over k of input (i_0, k) times weight (k, i_1). -/
theorem out_apply (x0 : (⟨S8192x2048, .f32⟩ : BufTy).Contents (Elt Ideal)) (x1 : (⟨S4194304, .f32⟩ : BufTy).Contents (Elt Ideal)) (x2 : (⟨S512x64, .f32⟩ : BufTy).Contents (Elt Ideal)) (i : S8192x2048.Idx) :
    Read.val_main_v32 (F := Ideal) x0 x1 x2 i
      = ∑ k : Fin 2048, x0 (ix2 ⟨(i 0).val, (i 0).isLt⟩ k) * Read.val_main_v31 (F := Ideal) x1 x2 (ix2 k ⟨(i 1).val, (i 1).isLt⟩) := by
  rw [Read.val_main_v32_apply]
  refine Finset.sum_congr rfl fun k _ => ?_
  rw [idx_topl, idx_topr]
  rfl

/-- The weight matrix is the quantized array reshaped once: the reshape to a flat vector followed by the reshape to
    2048 x 2048 matches row-major positions through the flat vector, which is matching them directly. -/
theorem weight_reshape (x1 : (⟨S4194304, .f32⟩ : BufTy).Contents (Elt Ideal)) (x2 : (⟨S512x64, .f32⟩ : BufTy).Contents (Elt Ideal))
    (hcast : S65536x64.ShapeCasts S2048x2048) :
    Read.val_main_v31 (F := Ideal) x1 x2 = shapeCast S2048x2048 (Read.val_main_v29 (F := Ideal) x1 x2) hcast := by
  funext i
  unfold Read.val_main_v31 Read.val_main_v30
  refine congrArg (Read.val_main_v29 (F := Ideal) x1 x2) ?_
  exact Shape.reshapeEquiv_reshapeEquiv _ _ i

end Cert.ReferenceIdeal.RefValue

end
-- ==== Proof.LibERealFinite.lean ====
/-
  Extended reals that are reals.

  Part A: the predicate "x is a real" on the extended reals, with the value of each exact operation
  on reals and the closure of the predicate under it (sum, difference, product, negation, maximum,
  minimum, finite sums, quotient by a nonzero real constant, reciprocal square root of a positive
  real), and the sign facts that go with a variance (a square is nonnegative, a sum of nonnegatives is
  nonnegative, the reciprocal square root of a real at least one lies in (0, 1]).

  Part B: the batch-norm rearrangement. For reals, ((h - μ) * r) * g + β = h * (g * r) + (β - μ * (g * r)):
  distributivity, which holds on the reals and fails at the infinities.
-/
import Mathlib.Data.EReal.Inv
import Mathlib.Analysis.Real.Sqrt
import Idealize.ShloMosaic.PureOps.Ideal

namespace ERealForms

open Idealize.ShloMosaic
open scoped BigOperators

/-! ## A. Finiteness -/

/-- `IsReal x`: the extended real `x` is the coercion of a real number. -/
def IsReal (x : EReal) : Prop := ∃ r : ℝ, x = (r : EReal)

/-- An extended real is a real exactly when it is neither `⊤` nor `⊥`. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- The coercion of a real number is a real. -/
theorem isReal_coe (r : ℝ) : IsReal (r : EReal) := ⟨r, rfl⟩

/-- Zero is a real. -/
theorem isReal_zero : IsReal (0 : EReal) := ⟨0, rfl⟩

/-- One is a real. -/
theorem isReal_one : IsReal (1 : EReal) := ⟨1, rfl⟩

/-- A real is not `⊤`. -/
theorem IsReal.ne_top {x : EReal} (h : IsReal x) : x ≠ ⊤ := (isReal_iff_ne.1 h).1

/-- A real is not `⊥`. -/
theorem IsReal.ne_bot {x : EReal} (h : IsReal x) : x ≠ ⊥ := (isReal_iff_ne.1 h).2

/-- A real is the coercion of its real part. -/
theorem IsReal.coe_toReal {x : EReal} (h : IsReal x) : ((x.toReal : ℝ) : EReal) = x :=
  EReal.coe_toReal h.ne_top h.ne_bot

/-! ### The value of each operation on two reals -/

/-- The sum of two reals is the coercion of the real sum. -/
theorem coe_add_coe (a b : ℝ) : (a : EReal) + (b : EReal) = ((a + b : ℝ) : EReal) :=
  (EReal.coe_add a b).symm

/-- The difference of two reals is the coercion of the real difference. -/
theorem coe_sub_coe (a b : ℝ) : (a : EReal) - (b : EReal) = ((a - b : ℝ) : EReal) :=
  (EReal.coe_sub a b).symm

/-- The product of two reals is the coercion of the real product. -/
theorem coe_mul_coe (a b : ℝ) : (a : EReal) * (b : EReal) = ((a * b : ℝ) : EReal) :=
  (EReal.coe_mul a b).symm

/-- The negation of a real is the coercion of the real negation. -/
theorem neg_coe (a : ℝ) : -(a : EReal) = ((-a : ℝ) : EReal) :=
  (EReal.coe_neg a).symm

/-- The maximum of two reals is the coercion of the real maximum. -/
theorem max_coe_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The minimum of two reals is the coercion of the real minimum. -/
theorem min_coe_coe (a b : ℝ) : min (a : EReal) (b : EReal) = ((min a b : ℝ) : EReal) := by
  rcases le_total a b with h | h
  · rw [min_eq_left h, min_eq_left (EReal.coe_le_coe_iff.2 h)]
  · rw [min_eq_right h, min_eq_right (EReal.coe_le_coe_iff.2 h)]

/-- The maximum of a real and zero is the coercion of the real maximum with zero. -/
theorem max_coe_zero (a : ℝ) : max (a : EReal) 0 = ((max a 0 : ℝ) : EReal) :=
  max_coe_coe a 0

/-- An extended real is a real exactly when its absolute value `max x (-x)` is below `⊤`. -/
theorem isReal_iff_abs_lt_top {x : EReal} : IsReal x ↔ max x (-x) < ⊤ := by
  constructor
  · rintro ⟨a, rfl⟩
    rw [neg_coe, max_coe_coe]
    exact EReal.coe_lt_top _
  · intro h
    rw [isReal_iff_ne]
    constructor
    · rintro rfl
      have hmax : max (⊤ : EReal) (-⊤) = ⊤ := max_eq_left le_top
      rw [hmax] at h
      exact lt_irrefl _ h
    · rintro rfl
      have hmax : max (⊥ : EReal) (-⊥) = ⊤ := by
        rw [EReal.neg_bot]
        exact max_eq_right bot_le
      rw [hmax] at h
      exact lt_irrefl _ h

/-! ### Closure of the predicate -/

/-- The sum of two reals is a real. -/
theorem IsReal.add {x y : EReal} (hx : IsReal x) (hy : IsReal y) : IsReal (x + y) := by
  obtain ⟨a, rfl⟩ := hx
  obtain ⟨b, rfl⟩ := hy
  exact ⟨a + b, coe_add_coe a b⟩

/-- The difference of two reals is a real. -/
theorem IsReal.sub {x y : EReal} (hx : IsReal x) (hy : IsReal y) : IsReal (x - y) := by
  obtain ⟨a, rfl⟩ := hx
  obtain ⟨b, rfl⟩ := hy
  exact ⟨a - b, coe_sub_coe a b⟩

/-- The product of two reals is a real. -/
theorem IsReal.mul {x y : EReal} (hx : IsReal x) (hy : IsReal y) : IsReal (x * y) := by
  obtain ⟨a, rfl⟩ := hx
  obtain ⟨b, rfl⟩ := hy
  exact ⟨a * b, coe_mul_coe a b⟩

/-- The negation of a real is a real. -/
theorem IsReal.neg {x : EReal} (hx : IsReal x) : IsReal (-x) := by
  obtain ⟨a, rfl⟩ := hx
  exact ⟨-a, neg_coe a⟩

/-- The maximum of two reals is a real. -/
theorem IsReal.max {x y : EReal} (hx : IsReal x) (hy : IsReal y) : IsReal (max x y) := by
  obtain ⟨a, rfl⟩ := hx
  obtain ⟨b, rfl⟩ := hy
  exact ⟨Max.max a b, max_coe_coe a b⟩

/-- The minimum of two reals is a real. -/
theorem IsReal.min {x y : EReal} (hx : IsReal x) (hy : IsReal y) : IsReal (min x y) := by
  obtain ⟨a, rfl⟩ := hx
  obtain ⟨b, rfl⟩ := hy
  exact ⟨Min.min a b, min_coe_coe a b⟩

/-- The maximum of a real and zero is a real. -/
theorem IsReal.max_zero {x : EReal} (hx : IsReal x) : IsReal (Max.max x 0) := hx.max isReal_zero

/-- The maximum of anything and zero is nonnegative. -/
theorem max_zero_nonneg (x : EReal) : 0 ≤ Max.max x 0 := le_max_right x 0

/-! ### Finite sums -/

/-- A finite sum of coercions of reals is the coercion of the real sum. -/
theorem coe_finset_sum {ι : Type*} (s : Finset ι) (f : ι → ℝ) :
    ∑ i ∈ s, ((f i : ℝ) : EReal) = ((∑ i ∈ s, f i : ℝ) : EReal) := by
  classical
  refine Finset.induction_on s ?_ ?_
  · simp
  · intro a t ha ih
    rw [Finset.sum_insert ha, Finset.sum_insert ha, ih, EReal.coe_add]

/-- A finite sum of reals is the coercion of the sum of their real parts. -/
theorem finset_sum_eq_coe {ι : Type*} (s : Finset ι) (f : ι → EReal) (h : ∀ i ∈ s, IsReal (f i)) :
    ∑ i ∈ s, f i = ((∑ i ∈ s, (f i).toReal : ℝ) : EReal) := by
  rw [← coe_finset_sum]
  exact Finset.sum_congr rfl (fun i hi => ((h i hi).coe_toReal).symm)

/-- A finite sum of reals is a real. -/
theorem isReal_finset_sum {ι : Type*} (s : Finset ι) (f : ι → EReal) (h : ∀ i ∈ s, IsReal (f i)) :
    IsReal (∑ i ∈ s, f i) :=
  ⟨_, finset_sum_eq_coe s f h⟩

/-- A finite sum of nonnegative extended reals is nonnegative. -/
theorem finset_sum_nonneg {ι : Type*} (s : Finset ι) (f : ι → EReal) (h : ∀ i ∈ s, 0 ≤ f i) :
    0 ≤ ∑ i ∈ s, f i :=
  Finset.sum_nonneg h

/-- A finite sum of products of reals is a real. -/
theorem isReal_sum_mul {ι : Type*} (s : Finset ι) (f g : ι → EReal) (hf : ∀ i ∈ s, IsReal (f i))
    (hg : ∀ i ∈ s, IsReal (g i)) : IsReal (∑ i ∈ s, f i * g i) :=
  isReal_finset_sum s _ (fun i hi => (hf i hi).mul (hg i hi))

/-- A nonnegative real plus one is a real that is at least one. -/
theorem IsReal.add_one_ge {x : EReal} (hx : IsReal x) (h0 : 0 ≤ x) : IsReal (x + 1) ∧ 1 ≤ x + 1 := by
  obtain ⟨a, rfl⟩ := hx
  rw [← EReal.coe_one, coe_add_coe]
  exact ⟨isReal_coe _, EReal.coe_le_coe_iff.2 (le_add_of_nonneg_left (EReal.coe_nonneg.1 h0))⟩

/-- The square of a real is nonnegative. -/
theorem IsReal.mul_self_nonneg {x : EReal} (hx : IsReal x) : 0 ≤ x * x := by
  obtain ⟨a, rfl⟩ := hx
  rw [coe_mul_coe]
  exact EReal.coe_nonneg.2 (_root_.mul_self_nonneg a)

/-- A finite sum of squares of reals is a nonnegative real. -/
theorem isReal_sum_mul_self {ι : Type*} (s : Finset ι) (f : ι → EReal) (h : ∀ i ∈ s, IsReal (f i)) :
    IsReal (∑ i ∈ s, f i * f i) ∧ 0 ≤ ∑ i ∈ s, f i * f i :=
  ⟨isReal_finset_sum s _ (fun i hi => (h i hi).mul (h i hi)),
   finset_sum_nonneg s _ (fun i hi => (h i hi).mul_self_nonneg)⟩

/-! ### Quotient by a nonzero real constant -/

/-- The quotient of a real by a nonzero real is the coercion of the real quotient. -/
theorem div_coe_coe (a : ℝ) {c : ℝ} (hc : c ≠ 0) :
    Ideal.div (a : EReal) (c : EReal) = ((a / c : ℝ) : EReal) := by
  rw [Ideal.div_coe hc, coe_mul_coe, mul_one_div]

/-- The quotient of a real by a nonzero real constant is a real. -/
theorem IsReal.div_coe {x : EReal} (hx : IsReal x) {c : ℝ} (hc : c ≠ 0) :
    IsReal (Ideal.div x (c : EReal)) := by
  obtain ⟨a, rfl⟩ := hx
  exact ⟨a / c, div_coe_coe a hc⟩

/-- The quotient of a nonnegative real by a positive real constant is nonnegative. -/
theorem IsReal.div_coe_nonneg {x : EReal} (hx : IsReal x) (h0 : 0 ≤ x) {c : ℝ} (hc : 0 < c) :
    0 ≤ Ideal.div x (c : EReal) := by
  obtain ⟨a, rfl⟩ := hx
  rw [div_coe_coe a hc.ne']
  exact EReal.coe_nonneg.2 (div_nonneg (EReal.coe_nonneg.1 h0) hc.le)

/-- The quotient of a real by a nonzero real is a real. -/
theorem IsReal.div {x y : EReal} (hx : IsReal x) (hy : IsReal y) (hy0 : y ≠ 0) :
    IsReal (Ideal.div x y) := by
  obtain ⟨c, rfl⟩ := hy
  have hc : c ≠ 0 := by
    intro h
    exact hy0 (by rw [h, EReal.coe_zero])
  exact hx.div_coe hc

/-- The quotient of a real by a real that is at least one is a real. -/
theorem IsReal.div_of_one_le {x y : EReal} (hx : IsReal x) (hy : IsReal y) (h1 : 1 ≤ y) :
    IsReal (Ideal.div x y) :=
  hx.div hy (ne_of_gt (lt_of_lt_of_le zero_lt_one h1))

/-! ### Reciprocal square root -/

/-- At a positive real `a` the reciprocal square root is the coercion of `(√a)⁻¹`. -/
theorem rsqrt_coe_of_pos {a : ℝ} (ha : 0 < a) :
    Ideal.rsqrt (a : EReal) = (((Real.sqrt a)⁻¹ : ℝ) : EReal) := by
  rw [Ideal.rsqrt_coe, if_neg (not_lt.2 ha.le), if_neg ha.ne']

/-- The reciprocal square root of a positive real is a positive real. -/
theorem IsReal.rsqrt_of_pos {x : EReal} (hx : IsReal x) (hpos : 0 < x) :
    ∃ r : ℝ, 0 < r ∧ Ideal.rsqrt x = (r : EReal) := by
  obtain ⟨a, rfl⟩ := hx
  have ha : 0 < a := EReal.coe_pos.1 hpos
  exact ⟨(Real.sqrt a)⁻¹, inv_pos.2 (Real.sqrt_pos.2 ha), rsqrt_coe_of_pos ha⟩

/-- The reciprocal square root of a positive real is a real. -/
theorem IsReal.isReal_rsqrt {x : EReal} (hx : IsReal x) (hpos : 0 < x) : IsReal (Ideal.rsqrt x) := by
  obtain ⟨r, _, hr⟩ := hx.rsqrt_of_pos hpos
  exact ⟨r, hr⟩

/-- The reciprocal square root of a positive real is positive. -/
theorem IsReal.rsqrt_pos {x : EReal} (hx : IsReal x) (hpos : 0 < x) : 0 < Ideal.rsqrt x := by
  obtain ⟨r, hr0, hr⟩ := hx.rsqrt_of_pos hpos
  rw [hr]
  exact EReal.coe_pos.2 hr0

/-- The reciprocal square root of a real that is at least one is a real in `(0, 1]`. -/
theorem IsReal.rsqrt_of_one_le {x : EReal} (hx : IsReal x) (h1 : 1 ≤ x) :
    ∃ r : ℝ, 0 < r ∧ r ≤ 1 ∧ Ideal.rsqrt x = (r : EReal) := by
  obtain ⟨a, rfl⟩ := hx
  have ha1 : (1 : ℝ) ≤ a := by
    rw [← EReal.coe_one] at h1
    exact EReal.coe_le_coe_iff.1 h1
  have ha : 0 < a := lt_of_lt_of_le one_pos ha1
  exact ⟨(Real.sqrt a)⁻¹, inv_pos.2 (Real.sqrt_pos.2 ha),
    inv_le_one_of_one_le₀ (Real.one_le_sqrt.2 ha1), rsqrt_coe_of_pos ha⟩

/-- A nonnegative real plus a positive real constant is a positive real. -/
theorem IsReal.add_coe_pos {v : EReal} (hv : IsReal v) (h0 : 0 ≤ v) {e : ℝ} (he : 0 < e) :
    IsReal (v + (e : EReal)) ∧ 0 < v + (e : EReal) := by
  obtain ⟨a, rfl⟩ := hv
  refine ⟨⟨a + e, coe_add_coe a e⟩, ?_⟩
  rw [coe_add_coe]
  exact EReal.coe_pos.2 (add_pos_of_nonneg_of_pos (EReal.coe_nonneg.1 h0) he)

/-- The reciprocal square root of a nonnegative real plus a positive real constant (a variance plus
    its `ε`) is a positive real. -/
theorem IsReal.rsqrt_add_coe {v : EReal} (hv : IsReal v) (h0 : 0 ≤ v) {e : ℝ} (he : 0 < e) :
    ∃ r : ℝ, 0 < r ∧ Ideal.rsqrt (v + (e : EReal)) = (r : EReal) :=
  (hv.add_coe_pos h0 he).1.rsqrt_of_pos (hv.add_coe_pos h0 he).2

/-! ## B. The batch-norm rearrangement -/

/-- Batch norm on reals: normalizing then scaling and shifting, `((h - μ) * r) * g + β`, is the affine map
    `h * (g * r) + (β - μ * (g * r))` with the folded scale `g * r` and shift `β - μ * (g * r)`. -/
theorem batchNorm_affine {h μ r g β : EReal} (hh : IsReal h) (hμ : IsReal μ) (hr : IsReal r)
    (hg : IsReal g) (hβ : IsReal β) :
    ((h - μ) * r) * g + β = h * (g * r) + (β - μ * (g * r)) := by
  obtain ⟨h', rfl⟩ := hh
  obtain ⟨μ', rfl⟩ := hμ
  obtain ⟨r', rfl⟩ := hr
  obtain ⟨g', rfl⟩ := hg
  obtain ⟨β', rfl⟩ := hβ
  simp only [coe_sub_coe, coe_mul_coe, coe_add_coe]
  congr 1
  ring

/-- The same with the scale and the shift named: if `s = g * r` and `t = β - μ * s` then
    `((h - μ) * r) * g + β = h * s + t`, for reals. -/
theorem batchNorm_affine_of_eq {h μ r g β s t : EReal} (hh : IsReal h) (hμ : IsReal μ) (hr : IsReal r)
    (hg : IsReal g) (hβ : IsReal β) (hs : s = g * r) (ht : t = β - μ * s) :
    ((h - μ) * r) * g + β = h * s + t := by
  rw [ht, hs]
  exact batchNorm_affine hh hμ hr hg hβ

/-- Batch norm followed by the rectifier, on reals: `max (((h - μ) * r) * g + β) 0` is
    `max (h * (g * r) + (β - μ * (g * r))) 0`. -/
theorem batchNorm_affine_relu {h μ r g β : EReal} (hh : IsReal h) (hμ : IsReal μ) (hr : IsReal r)
    (hg : IsReal g) (hβ : IsReal β) :
    max (((h - μ) * r) * g + β) 0 = max (h * (g * r) + (β - μ * (g * r))) 0 := by
  rw [batchNorm_affine hh hμ hr hg hβ]

/-- Batch norm of reals is a real. -/
theorem isReal_batchNorm {h μ r g β : EReal} (hh : IsReal h) (hμ : IsReal μ) (hr : IsReal r)
    (hg : IsReal g) (hβ : IsReal β) : IsReal (((h - μ) * r) * g + β) :=
  (((hh.sub hμ).mul hr).mul hg).add hβ

/-- Batch norm of reals followed by the rectifier is a nonnegative real. -/
theorem isReal_batchNorm_relu {h μ r g β : EReal} (hh : IsReal h) (hμ : IsReal μ) (hr : IsReal r)
    (hg : IsReal g) (hβ : IsReal β) :
    IsReal (max (((h - μ) * r) * g + β) 0) ∧ 0 ≤ max (((h - μ) * r) * g + β) 0 :=
  ⟨(isReal_batchNorm hh hμ hr hg hβ).max_zero, max_zero_nonneg _⟩

/-- The array form: for a matrix `h` and per-column `μ r g β`, all entries reals, batch norm agrees with the
    folded affine map at every entry. -/
theorem batchNorm_affine_apply {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) (i : ι) (j : κ) :
    ((h i j - μ j) * r j) * g j + β j = h i j * (g j * r j) + (β j - μ j * (g j * r j)) :=
  batchNorm_affine (hh i j) (hμ j) (hr j) (hg j) (hβ j)

/-- The array form with the rectifier: entrywise, `max (batch norm) 0` agrees with
    `max (folded affine map) 0`. -/
theorem batchNorm_affine_relu_apply {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) (i : ι) (j : κ) :
    max (((h i j - μ j) * r j) * g j + β j) 0
      = max (h i j * (g j * r j) + (β j - μ j * (g j * r j))) 0 :=
  batchNorm_affine_relu (hh i j) (hμ j) (hr j) (hg j) (hβ j)

/-- The array form as an equality of functions. -/
theorem batchNorm_affine_relu_fun {ι κ : Type*} {h : ι → κ → EReal} {μ r g β : κ → EReal}
    (hh : ∀ i j, IsReal (h i j)) (hμ : ∀ j, IsReal (μ j)) (hr : ∀ j, IsReal (r j))
    (hg : ∀ j, IsReal (g j)) (hβ : ∀ j, IsReal (β j)) :
    (fun i j => max (((h i j - μ j) * r j) * g j + β j) 0)
      = fun i j => max (h i j * (g j * r j) + (β j - μ j * (g j * r j))) 0 := by
  funext i j
  exact batchNorm_affine_relu_apply hh hμ hr hg hβ i j

end ERealForms
-- ==== Proof.Math.lean ====
/-
  The two spellings of soft vector quantization agree on real inputs.

  Write z d = ↑(zr d) and c k d = ↑(cr k d) with real zr, cr, and put
    l k  = 2 * Σ_d zr d * cr k d - Σ_d cr k d * cr k d      (the logit without |z|^2),
    zz   = Σ_d zr d * zr d                                   (the term |z|^2).
  The four float words denote 0, 1, 2 and -∞. Every intermediate of both formulas is then a real:

  * the logit of the first form is ↑(l k), its weight ↑(exp (l k)), its numerator and denominator are coerced
    real sums, the denominator Σ_k exp (l k) is positive, so the one quotient is the coerced real quotient
      (Σ_k exp (l k) * cr k e) / Σ_k exp (l k);
  * the score of the second form is ↑(l k - zz); the row maximum, a fold of max from -∞ over the 512 real
    scores, is neither -∞ (the index set is not empty) nor +∞ (no score is), so it is some real M; the shifted
    weight is ↑(exp (l k - zz - M)), the row sum is a positive real, and each normalized weight is a coerced
    real quotient.

  What is left is the identity of real numbers
      Σ_k exp (l k - a) / Σ_k' exp (l k' - a) * v k = (Σ_k exp (l k) * v k) / Σ_k exp (l k),
  with a = zz + M: exp (l k - a) = exp (l k) * exp (-a), and the common factor exp (-a), which is not zero,
  cancels between each weight and the row sum.
-/
import proofs.«177413_g7705171329283_cont_sun_m_1135_11_alg».proof.Proof.Spec
import proofs.«177413_g7705171329283_cont_sun_m_1135_11_alg».proof.Proof.LibERealFinite
import Mathlib.Analysis.SpecialFunctions.Exp

noncomputable section

open scoped BigOperators

namespace Cert.SoftVQ

open Idealize.ShloMosaic ERealForms

/-! ## The four words -/

/-- The word of 0.0 denotes the real 0. -/
theorem zeroW_eq : zeroW = ((0 : ℝ) : EReal) := by
  simp [zeroW, Ideal.ofBits, Ideal.ieee]

/-- The word of 1.0 denotes the real 1. -/
theorem oneW_eq : oneW = ((1 : ℝ) : EReal) := by
  simp [oneW, Ideal.ofBits, Ideal.ieee, -EReal.coe_mul]; norm_num

/-- The word of 2.0 denotes the real 2. -/
theorem twoW_eq : twoW = ((2 : ℝ) : EReal) := by
  simp [twoW, Ideal.ofBits, Ideal.ieee, -EReal.coe_mul]; norm_num

/-- The word of -inf denotes -∞. -/
theorem ninfW_eq : ninfW = (⊥ : EReal) := by
  simp [ninfW, Ideal.ofBits, Ideal.ieee]

/-! ## The real identity -/

/-- Shifting every logit by the same real a does not change the softmax-weighted sum: the common factor
    exp (-a) cancels between each weight and the row sum. -/
theorem softmax_shift (l v : Fin 512 → ℝ) (a : ℝ) :
    ∑ k, Real.exp (l k - a) / (0 + ∑ k', Real.exp (l k' - a)) * v k
      = (∑ k, Real.exp (l k) * v k) / ∑ k, Real.exp (l k) := by
  have h1 : ∀ k, Real.exp (l k - a) = Real.exp (l k) * Real.exp (-a) := fun k => by
    rw [sub_eq_add_neg, Real.exp_add]
  have hne : Real.exp (-a) ≠ 0 := (Real.exp_pos _).ne'
  have hsum : ∑ k', Real.exp (l k') * Real.exp (-a) = (∑ k', Real.exp (l k')) * Real.exp (-a) :=
    (Finset.sum_mul _ _ _).symm
  simp only [h1, zero_add, hsum]
  rw [Finset.sum_div]
  refine Finset.sum_congr rfl (fun k _ => ?_)
  rw [mul_div_mul_right _ _ hne, div_mul_eq_mul_div]

/-! ## The real values of the intermediates -/

/-- The logit without the term |z|^2, as a real. -/
def lr (zr : Fin 64 → ℝ) (cr : Fin 512 → Fin 64 → ℝ) (k : Fin 512) : ℝ :=
  2 * ∑ d, zr d * cr k d - ∑ d, cr k d * cr k d

/-- The term |z|^2, as a real. -/
def zz (zr : Fin 64 → ℝ) : ℝ := ∑ d, zr d * zr d

variable (zr : Fin 64 → ℝ) (cr : Fin 512 → Fin 64 → ℝ)

/-- The 65-term inner product cut at its last term is the real 2 z.(c k) - |c k|^2. -/
theorem kerLogit_coe (k : Fin 512) :
    kerLogit (fun d => (zr d : EReal)) (fun k d => (cr k d : EReal)) k = ((lr zr cr k : ℝ) : EReal) := by
  unfold kerLogit
  simp only [zeroW_eq, oneW_eq, twoW_eq, coe_mul_coe, coe_finset_sum, coe_sub_coe, coe_add_coe]
  have h2 : ∑ d, zr d * (2 * cr k d) = 2 * ∑ d, zr d * cr k d := by
    rw [Finset.mul_sum]
    exact Finset.sum_congr rfl (fun d _ => by ring)
  rw [h2]
  unfold lr
  congr 1
  ring

/-- The unnormalized weight is the real exponential of the logit. -/
theorem kerE_coe (k : Fin 512) :
    kerE (fun d => (zr d : EReal)) (fun k d => (cr k d : EReal)) k = ((Real.exp (lr zr cr k) : ℝ) : EReal) := by
  unfold kerE
  rw [kerLogit_coe, oneW_eq, coe_mul_coe, mul_one]
  rfl

/-- The sum of the weights is a positive real. -/
theorem sum_exp_pos (l : Fin 512 → ℝ) : 0 < ∑ k, Real.exp (l k) :=
  Finset.sum_pos (fun k _ => Real.exp_pos _) Finset.univ_nonempty

/-- The one quotient of the first form is the real quotient of the two real sums. -/
theorem kerQ_coe (e : Fin 64) :
    kerQ (fun d => (zr d : EReal)) (fun k d => (cr k d : EReal)) e
      = (((∑ k, Real.exp (lr zr cr k) * cr k e) / ∑ k, Real.exp (lr zr cr k) : ℝ) : EReal) := by
  unfold kerQ
  simp only [kerE_coe, oneW_eq, coe_mul_coe, mul_one, coe_finset_sum]
  exact div_coe_coe _ (sum_exp_pos _).ne'

/-- The score of the second form is the logit minus |z|^2. -/
theorem refScore_coe (k : Fin 512) :
    refScore (fun d => (zr d : EReal)) (fun k d => (cr k d : EReal)) k
      = ((lr zr cr k - zz zr : ℝ) : EReal) := by
  unfold refScore
  simp only [zeroW_eq, oneW_eq, twoW_eq, coe_mul_coe, coe_finset_sum, coe_add_coe, coe_sub_coe, neg_coe]
  rw [div_coe_coe _ one_ne_zero]
  unfold lr zz
  congr 1
  ring

/-- The row maximum is a real: a fold of max from -∞ over 512 reals is neither -∞ nor +∞. -/
theorem refMax_isReal :
    ∃ M : ℝ, refMax (fun d => (zr d : EReal)) (fun k d => (cr k d : EReal)) = (M : EReal) := by
  unfold refMax
  rw [ninfW_eq, max_bot_left]
  apply isReal_iff_ne.2
  constructor
  · apply ne_of_lt
    rw [Finset.fold_max_lt]
    refine ⟨bot_lt_top, fun k _ => ?_⟩
    rw [refScore_coe]
    exact EReal.coe_lt_top _
  · apply ne_of_gt
    rw [Finset.lt_fold_max]
    refine Or.inr ⟨0, Finset.mem_univ _, ?_⟩
    rw [refScore_coe]
    exact EReal.bot_lt_coe _

/-! ## The two forms agree -/

/-- On real inputs the form without |z|^2 and the textbook softmax form give the same quantized coordinate. -/
theorem kerQ_eq_refQ (z : Fin 64 → EReal) (c : Fin 512 → Fin 64 → EReal)
    (hz : ∀ d, ERealForms.IsReal (z d)) (hc : ∀ k d, ERealForms.IsReal (c k d)) (e : Fin 64) :
    kerQ z c e = refQ z c e := by
  choose zr hzr using hz
  choose cr hcr using hc
  obtain rfl : z = fun d => (zr d : EReal) := funext hzr
  obtain rfl : c = fun k d => (cr k d : EReal) := funext fun k => funext (hcr k)
  obtain ⟨M, hM⟩ := refMax_isReal zr cr
  -- the shifted weights of the second form, as reals
  have hP : ∀ k, refP (fun d => (zr d : EReal)) (fun k d => (cr k d : EReal)) k
      = ((Real.exp (lr zr cr k - (zz zr + M)) : ℝ) : EReal) := fun k => by
    unfold refP
    rw [refScore_coe, hM, coe_sub_coe, sub_sub]
    rfl
  have hden : (0 + ∑ k', Real.exp (lr zr cr k' - (zz zr + M)) : ℝ) ≠ 0 := by
    rw [zero_add]
    exact (sum_exp_pos _).ne'
  rw [kerQ_coe]
  unfold refQ
  simp only [hP, zeroW_eq, coe_finset_sum, coe_add_coe, div_coe_coe _ hden, coe_mul_coe]
  congr 1
  exact (softmax_shift (lr zr cr) (fun k => cr k e) (zz zr + M)).symm

end Cert.SoftVQ

end
-- ==== Proof.RefValue.lean ====
/-
  The reference program's result is the kernel program's function of the arguments, on real inputs.

  Both programs end with the product of the activations and a [2048, 2048] weight matrix that is the quantized
  group array reshaped; the reference reshapes it through the flat parameter vector, and two reshapes in a row are
  one. The quantized group arrays differ in spelling only: the reference's entry (g, e) is the textbook softmax form
  of row g of the reshaped parameters, the kernel's the quotient form, and the two agree when the parameters and
  the codebook are real.
-/
import proofs.«177413_g7705171329283_cont_sun_m_1135_11_alg».proof.Proof.RefRead
import proofs.«177413_g7705171329283_cont_sun_m_1135_11_alg».proof.Proof.RefTop
import proofs.«177413_g7705171329283_cont_sun_m_1135_11_alg».proof.Proof.Math
import proofs.«177413_g7705171329283_cont_sun_m_1135_11_alg».proof.Proof.KernelValue

noncomputable section

open scoped BigOperators

namespace Cert.ReferenceIdeal.RefValue

open Cert.ReferenceIdeal Cert.ReferenceIdeal.Gen Idealize.ShloMosaic Idealize.ShloMosaic.TcCoe
open Idealize.ShloMosaic.ValueIdx Cert.SoftVQ ERealForms

/-- The reference's quantized group array is the kernel's, when parameters and codebook are real. -/
theorem quantized_eq (x1 : (⟨S4194304, .f32⟩ : BufTy).Contents (Elt Ideal)) (x2 : (⟨S512x64, .f32⟩ : BufTy).Contents (Elt Ideal))
    (h1 : ∀ i, IsReal (x1 i)) (h2 : ∀ i, IsReal (x2 i)) :
    Read.val_main_v29 (F := Ideal) x1 x2
      = Cert.KernelIdeal.Val.quantArr
          (shapeCast Cert.KernelIdeal.S65536x64 x1 Cert.KernelIdeal.Facts₀.shapeCasts_S4194304_S65536x64) x2 := by
  funext j
  obtain ⟨g, e, rfl⟩ : ∃ (g : Fin 65536) (e : Fin 64), j = ix2 g e := ⟨j 0, j 1, eq_ix2 j⟩
  rw [quantized_apply]
  refine (kerQ_eq_refQ _ _ (fun d => ?_) (fun k d => h2 _) e).symm
  rw [Read.val_main_v0_apply]
  exact h1 _

/-- The reference's result is the kernel program's function of the three arguments. -/
theorem result_eq (x0 : (⟨S8192x2048, .f32⟩ : BufTy).Contents (Elt Ideal)) (x1 : (⟨S4194304, .f32⟩ : BufTy).Contents (Elt Ideal))
    (x2 : (⟨S512x64, .f32⟩ : BufTy).Contents (Elt Ideal)) (h1 : ∀ i, IsReal (x1 i)) (h2 : ∀ i, IsReal (x2 i)) :
    Read.val_main_v32 (F := Ideal) x0 x1 x2 = Cert.KernelIdeal.Val.result x0 x1 x2 := by
  funext i
  rw [out_apply]
  unfold Cert.KernelIdeal.Val.result Cert.KernelIdeal.Val.prodArr
  refine Finset.sum_congr rfl fun k _ => congrArg (x0 _ * ·) ?_
  rw [weight_reshape x1 x2 Cert.KernelIdeal.Facts₀.shapeCasts_S65536x64_S2048x2048, quantized_eq x1 x2 h1 h2]

end Cert.ReferenceIdeal.RefValue

end
-- ==== Proof.Finite.lean ====
/-
  The precondition gives real entries.

  The printed predicate takes, for each of the three inputs x, the bit |x i| < +∞ at every index (the absolute
  value as max (x i) (-(x i)), compared below the word of +∞), reduces these bits by "and" over all axes from the
  bit 1, and joins the three results by "and". If the result is 1, each of the three reductions is 1, so each
  compared bit is 1, so max (x i) (-(x i)) < ⊤ at every index: x i is neither +∞ nor -∞ (whose negation is +∞), that
  is, x i is a real.
-/
import proofs.«177413_g7705171329283_cont_sun_m_1135_11_alg».proof.Pre_finite_inputs
import proofs.«177413_g7705171329283_cont_sun_m_1135_11_alg».proof.Proof.Gen.Pre_finite_inputs
import proofs.«177413_g7705171329283_cont_sun_m_1135_11_alg».proof.Proof.LibERealFinite
import Idealize.ShloMosaic.Lib.ReduceAll
import Idealize.ShloMosaic.Lib.ValueIdx
import Idealize.ShloMosaic.Lib.IdealHost
import Idealize.ShloMosaic.PureOps.Ideal.Laws

noncomputable section

namespace Cert.FiniteInputs

open Idealize.ShloMosaic Idealize.ShloMosaic.ValueIdx

/-- The word 0x7F800000 denotes +∞. -/
theorem ofBits_pinf : Ideal.ofBits .f32 0x7F800000#32 = (⊤ : EReal) := by
  simp [Ideal.ofBits, Ideal.ieee]

/-- The rank-0 shape has one index. -/
instance : Subsingleton Cert.Pre_finite_inputs.S_.Idx := ⟨fun a b => funext fun d => d.elim0⟩

/-- The comparison "below" of two extended reals gives the bit 1 only when the first is below the second. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One compared bit: if |x i| is below the broadcast word of +∞ then x i is a real. -/
theorem isReal_of_bit {s : Shape} (x : FVec Ideal s .f32)
    (hb : Cert.Pre_finite_inputs.S_.BroadcastsInDim s (![] : Fin 0 → Fin s.rank)) (i : s.Idx)
    (hi : cmpf .olt (Host.absf x)
      (broadcastInDim s ![] hb (constant Cert.Pre_finite_inputs.S_ .f32 0x7F800000#32)) i = 1#1) :
    ERealForms.IsReal (x i) := by
  rw [cmpf_apply, broadcastInDim_scalar_apply, constant_apply, ofBits_pinf] at hi
  exact ERealForms.isReal_iff_abs_lt_top.2 (lt_of_cmp_olt hi)

/-- If the printed predicate holds, the entries of its second and third inputs are reals. -/
theorem reals_of_pre (a0 : FVec Ideal Cert.Pre_finite_inputs.S8192x2048 .f32) (a1 : FVec Ideal Cert.Pre_finite_inputs.S4194304 .f32) (a2 : FVec Ideal Cert.Pre_finite_inputs.S512x64 .f32)
    (h : Cert.Pre_finite_inputs.fn (F := Ideal) a0 a1 a2 = fun _ => 1#1) :
    (∀ i, ERealForms.IsReal (a1 i)) ∧ (∀ i, ERealForms.IsReal (a2 i)) := by
  have h0 := congrFun h ValueIdx.ix0
  dsimp only [Cert.Pre_finite_inputs.fn] at h0
  -- the three reductions are each 1
  obtain ⟨h01, h2⟩ := IntOp.andi_eq_one.1 h0
  obtain ⟨_, h1⟩ := IntOp.andi_eq_one.1 h01
  refine ⟨fun i => ?_, fun i => ?_⟩
  · exact isReal_of_bit a1 _ i (Host.reduce_andi_all _ _ _ _ _ h1 i)
  · exact isReal_of_bit a2 _ i (Host.reduce_andi_all _ _ _ _ _ h2 i)

end Cert.FiniteInputs

end
-- ==== Proof.lean ====
/-
  The certificate of the soft-quantizing dense layer.

  The kernel program quantizes a flat parameter vector, 64 numbers at a time, softly against a codebook of 512
  codewords, reshapes the result to a [2048, 2048] weight matrix and multiplies the activations by it; the reference
  does the same with jnp. The two differ in how the soft assignment is spelt:

  * the kernel drops the term |z|^2 of the squared distance (common to all codewords, it cancels in the softmax),
    takes the logits 2 z.(c k) - |c k|^2 as ONE matrix product of the groups extended by a one with the codewords
    extended by -|c k|^2, does not subtract the row maximum, and divides once at the end: the numerators and the
    denominator come out of one more matrix product against the codebook extended by a column of ones;
  * the reference computes the full squared distance, negates, subtracts the row maximum, exponentiates, normalizes
    each weight, and then multiplies by the codebook.

  On the extended reals, with real parameters and a real codebook (the precondition: every input is finite), every
  intermediate of both is a real and the two are one number: shifting all logits of a row by a common real does not
  change a softmax-weighted sum. The activations need not be real: both programs multiply them into the same
  weights by the same sum.

  The idealization rewrote no operation, so `preserves` is trivial. For `algebraic`, the kernel program's run ends at
  one function of the three arguments; the reference's run ends at its own term of them; the two terms are equal
  under the real entries the precondition gives.
-/
import proofs.«177413_g7705171329283_cont_sun_m_1135_11_alg».proof.Defs
import proofs.«177413_g7705171329283_cont_sun_m_1135_11_alg».proof.Proof.Gen.Kernel
import proofs.«177413_g7705171329283_cont_sun_m_1135_11_alg».proof.Proof.Gen.Kernel.Skeleton
import proofs.«177413_g7705171329283_cont_sun_m_1135_11_alg».proof.Proof.Gen.Kernel.Launch
import proofs.«177413_g7705171329283_cont_sun_m_1135_11_alg».proof.Proof.Gen.Kernel.Points
import proofs.«177413_g7705171329283_cont_sun_m_1135_11_alg».proof.Proof.Gen.Kernel.Frame
import proofs.«177413_g7705171329283_cont_sun_m_1135_11_alg».proof.Proof.Gen.KernelIdeal
import proofs.«177413_g7705171329283_cont_sun_m_1135_11_alg».proof.Proof.Gen.KernelIdeal.Skeleton
import proofs.«177413_g7705171329283_cont_sun_m_1135_11_alg».proof.Proof.Gen.KernelIdeal.Launch
import proofs.«177413_g7705171329283_cont_sun_m_1135_11_alg».proof.Proof.Gen.KernelIdeal.Points
import proofs.«177413_g7705171329283_cont_sun_m_1135_11_alg».proof.Proof.Gen.KernelIdeal.Frame
import proofs.«177413_g7705171329283_cont_sun_m_1135_11_alg».proof.Proof.Gen.ReferenceIdeal
import proofs.«177413_g7705171329283_cont_sun_m_1135_11_alg».proof.Proof.Gen.Pre_finite_inputs
import proofs.«177413_g7705171329283_cont_sun_m_1135_11_alg».proof.Proof.Gen.ReferenceIdeal.Run
import proofs.«177413_g7705171329283_cont_sun_m_1135_11_alg».proof.Proof.Gen.ReferenceIdeal.Read
import proofs.«177413_g7705171329283_cont_sun_m_1135_11_alg».proof.Proof.KernelValue
import proofs.«177413_g7705171329283_cont_sun_m_1135_11_alg».proof.Proof.RefValue
import proofs.«177413_g7705171329283_cont_sun_m_1135_11_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the kernel program's function of the arguments: the kernel program by its run, the
    reference because its result term is that function when parameters and codebook are real. -/
theorem algebraic : Cert.algebraic_KernelIdeal_ReferenceIdeal := by
  intro m ρ m' ρ' hpre hagree
  refine ⟨fun c => Cert.KernelIdeal.Val.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Val.run m ρ, ?_⟩
  refine (θ_run Cert.ReferenceIdeal.defs _ _).mono (fun _ h c => ⟨?_, (h c).2⟩)
    (Cert.ReferenceIdeal.Value.run (F := Ideal) m' ρ')
  obtain ⟨hr1, hr2⟩ := Cert.FiniteInputs.reals_of_pre _ _ _ (hpre c)
  rw [(h c).1, Cert.ReferenceIdeal.Read.val_main_v32_eq, (hagree c).1, (hagree c).2.1, (hagree c).2.2]
  exact Cert.ReferenceIdeal.RefValue.result_eq _ _ _ hr1 hr2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
